-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x182 : Shape := ⟨2, ![100000, 182]⟩
abbrev S2x800000 : Shape := ⟨2, ![2, 800000]⟩
abbrev S128x182 : Shape := ⟨2, ![128, 182]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x182 : S_.BroadcastsInDim S100000x182 (![] : Fin 0 → Fin S100000x182.rank)
  reducesTo_S100000x182_S_d0_1 : S100000x182.ReducesTo [0, 1] S_
  h_S_ : 0 < S_.numel
  bcast_S_S128x182 : S_.BroadcastsInDim S128x182 (![] : Fin 0 → Fin S128x182.rank)
  reducesTo_S128x182_S_d0_1 : S128x182.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x128 .f32) (main_arg6 : FVec F S64x128 .f32) (main_arg7 : FVec F S64 .f32) (main_arg8 : FVec F S2x64 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x182 .f32) (main_arg1 : IVec S2x800000 32) (main_arg2 : FVec F S128x182 .f32) (main_arg3 : FVec F S128x182 .f32) (main_arg4 : FVec F S128 .f32) (main_arg5 : FVec F S64x128 .f32) (main_arg6 : FVec F S64x128 .f32) (main_arg7 : FVec F S64 .f32) (main_arg8 : FVec F S2x64 .f32) (main_arg9 : FVec F S2 .f32) : IVec S_ 1 :=
  let main_v0 : FVec F S100000x182 .f32 := Host.absf main_arg0
  let main_cst : FVec F S_ .f32 := constant S_ .f32 0x7F800000#32
  let main_v1 : FVec F S100000x182 .f32 := broadcastInDim S100000x182 ![] bcast_S_S100000x182 main_cst
  let main_v2 : IVec S100000x182 1 := cmpf .olt main_v0 main_v1
  let main_c : IVec S_ 1 := constantI S_ 1 1#1
  let main_v3 : IVec S_ 1 := (fun x v => Host.reduce IntOp.andi x v reducesTo_S100000x182_S_d0_1 h_S_) main_v2 main_c
  let main_v4 : FVec F S128x182 .f32 := Host.absf main_arg2
  let main_cst_0 : FVec F S_ .f32 := constant S_ .f32 0x7F800000#32
  let main_v5 : FVec F S128x182 .f32 := broadcastInDim S128x182 ![] bcast_S_S128x182 main_cst_0
  let main_v6 : IVec S128x182 1 := cmpf .olt main_v4 main_v5
  let main_c_1 : IVec S_ 1 := constantI S_ 1 1#1
  let main_v7 : IVec S_ 1 := (fun x v => Host.reduce IntOp.andi x v reducesTo_S128x182_S_d0_1 h_S_) main_v6 main_c_1
  let main_v8 : IVec S_ 1 := andi main_v3 main_v7
  let main_v9 : FVec F S128x182 .f32 := Host.absf main_arg3
  let main_cst_2 : FVec F S_ .f32 := constant S_ .f32 0x7F800000#32
  let main_v10 : FVec F S128x182 .f32 := broadcastInDim S128x182 ![] bcast_S_S128x182 main_cst_2
  let main_v11 : IVec S128x182 1 := cmpf .olt main_v9 main_v10
  let main_c_3 : IVec S_ 1 := constantI S_ 1 1#1
  let main_v12 : IVec S_ 1 := (fun x v => Host.reduce IntOp.andi x v reducesTo_S128x182_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x182 : Shape := ⟨2, ![100000, 182]⟩
abbrev S2x800000 : Shape := ⟨2, ![2, 800000]⟩
abbrev S128x182 : Shape := ⟨2, ![128, 182]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x182 : Shape := ⟨2, ![800000, 182]⟩
abbrev S100000x1 : Shape := ⟨2, ![100000, 1]⟩
abbrev S182x128 : Shape := ⟨2, ![182, 128]⟩
abbrev S1x128 : Shape := ⟨2, ![1, 128]⟩
abbrev S100000x128 : Shape := ⟨2, ![100000, 128]⟩
abbrev S5000x182 : Shape := ⟨2, ![5000, 182]⟩
abbrev S5000x128 : Shape := ⟨2, ![5000, 128]⟩
abbrev S800000x128 : Shape := ⟨2, ![800000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S64x2 : Shape := ⟨2, ![64, 2]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 73
  | .vmem => 24
  | .smem => 0
  | _ => 0

abbrev bufTy : (tb : Table) → Fin (tcTables nBuf tb) → BufTy
  | .hbm, ⟨0, _⟩ => ⟨S100000x182, .f32⟩
  | .hbm, ⟨1, _⟩ => ⟨S2x800000, .i32⟩
  | .hbm, ⟨2, _⟩ => ⟨S128x182, .f32⟩
  | .hbm, ⟨3, _⟩ => ⟨S128x182, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S2x64, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x182, .f32⟩
  | .hbm, ⟨23, _⟩ => ⟨S_, .f32⟩
  | .hbm, ⟨24, _⟩ => ⟨S100000x182, .f32⟩
  | .hbm, ⟨25, _⟩ => ⟨S800000x1, .i32⟩
  | .hbm, ⟨26, _⟩ => ⟨S100000x182, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S100000x1, .f32⟩
  | .hbm, ⟨31, _⟩ => ⟨S800000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x182, .f32⟩
  | .hbm, ⟨37, _⟩ => ⟨S100000x182, .f32⟩
  | .hbm, ⟨38, _⟩ => ⟨S182x128, .f32⟩
  | .hbm, ⟨39, _⟩ => ⟨S182x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S100000x128, .f32⟩
  | .hbm, ⟨53, _⟩ => ⟨S800000x1, .i32⟩
  | .hbm, ⟨54, _⟩ => ⟨S100000x128, .f32⟩
  | .hbm, ⟨55, _⟩ => ⟨S_, .f32⟩
  | .hbm, ⟨56, _⟩ => ⟨S800000x1, .f32⟩
  | .hbm, ⟨57, _⟩ => ⟨S_, .f32⟩
  | .hbm, ⟨58, _⟩ => ⟨S100000x1, .f32⟩
  | .hbm, ⟨59, _⟩ => ⟨S800000x1, .i32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x64, .f32⟩
  | .hbm, ⟨67, _⟩ => ⟨S128x64, .f32⟩
  | .hbm, ⟨68, _⟩ => ⟨S1x64, .f32⟩
  | .hbm, ⟨69, _⟩ => ⟨S100000x64, .f32⟩
  | .hbm, ⟨70, _⟩ => ⟨S64x2, .f32⟩
  | .hbm, ⟨71, _⟩ => ⟨S1x2, .f32⟩
  | .hbm, ⟨72, _⟩ => ⟨S100000x2, .f32⟩
  | .local _ .vmem, ⟨0, _⟩ => ⟨S5000x182, .f32⟩
  | .local _ .vmem, ⟨1, _⟩ => ⟨S5000x182, .f32⟩
  | .local _ .vmem, ⟨2, _⟩ => ⟨S5000x182, .f32⟩
  | .local _ .vmem, ⟨3, _⟩ => ⟨S5000x182, .f32⟩
  | .local _ .vmem, ⟨4, _⟩ => ⟨S182x128, .f32⟩
  | .local _ .vmem, ⟨5, _⟩ => ⟨S182x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S100000x182, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x182 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x182 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S182x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S182x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x182 : S_.BroadcastsInDim S100000x182 (![] : Fin 0 → Fin S100000x182.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x182_0_1 : S100000x1.BroadcastsInDim S100000x182 (![0, 1] : Fin 2 → Fin S100000x182.rank)
  transposes_S128x182_S182x128_1_0 : S128x182.Transposes [1, 0] S182x128
  shapeCasts_S128_S1x128 : S128.ShapeCasts S1x128
  inb_S5000x182_S5000x182_0_0 : ∀ a, (![0, 0] : Fin 2 → Nat) a + S5000x182.size a ≤ S5000x182.size a
  h_S5000x182 : 0 < S5000x182.numel
  shapeCasts_S5000x182_S5000x182 : S5000x182.ShapeCasts S5000x182
  bitsLt_bf16_f32 : FTy.bits .bf16 < FTy.bits .f32
  inb_S182x128_S182x128_0_0 : ∀ a, (![0, 0] : Fin 2 → Nat) a + S182x128.size a ≤ S182x128.size a
  h_S182x128 : 0 < S182x128.numel
  shapeCasts_S182x128_S182x128 : S182x128.ShapeCasts S182x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  transposes_S2x64_S64x2_1_0 : S2x64.Transposes [1, 0] S64x2
  shapeCasts_S2_S1x2 : S2.ShapeCasts S1x2
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  gather_S100000x182_S800000x1_S800000x182_1_0_n_n_0_1_1182_wf : GatherDims.WF S100000x182 S800000x1 S800000x182 [1] [0] [] [0] [] 1 ![1, 182]
  scatter_S100000x182_S800000x1_S800000x182_1_0_0_1_wf : ScatterDims.WF S100000x182 S800000x1 S800000x182 [1] [0] [0] 1
  scatter_S100000x1_S800000x1_S800000x1_1_0_0_1_wf : ScatterDims.WF S100000x1 S800000x1 S800000x1 [1] [0] [0] 1
  dot_S5000x182_S182x128_S5000x128_1_0_0_1_n_n_wf : DotDims.WF S5000x182 S182x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x182.size a ≤ S100000x182.size a
  hwx0_0 : ∀ i : grid0.Coords, EltTy.bits .f32 = 32 ∨ (Rect.block (s := S100000x182) S5000x182.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x182.size a ≤ S100000x182.size a
  hwx0_1 : ∀ i : grid0.Coords, EltTy.bits .f32 = 32 ∨ (Rect.block (s := S100000x182) S5000x182.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S182x128.size a ≤ S182x128.size a
  hwx0_2 : ∀ i : grid0.Coords, EltTy.bits .f32 = 32 ∨ (Rect.block (s := S182x128) S182x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S182x128.size a ≤ S182x128.size a
  hwx0_3 : ∀ i : grid0.Coords, EltTy.bits .f32 = 32 ∨ (Rect.block (s := S182x128) S182x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def gather_S100000x182_S800000x1_S800000x182_1_0_n_n_0_1_1182 : GatherDims S100000x182 S800000x1 S800000x182 where
  offsetDims := [1]
  collapsedSliceDims := [0]
  operandBatchingDims := []
  startIndicesBatchingDims := []
  startIndexMap := [0]
  indexVectorDim := 1
  sliceSizes := ![1, 182]
  wf := gather_S100000x182_S800000x1_S800000x182_1_0_n_n_0_1_1182_wf
def scatter_S100000x182_S800000x1_S800000x182_1_0_0_1 : ScatterDims S100000x182 S800000x1 S800000x182 where
  updateWindowDims := [1]
  insertedWindowDims := [0]
  scatterDimsToOperandDims := [0]
  indexVectorDim := 1
  wf := scatter_S100000x182_S800000x1_S800000x182_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S5000x182_S182x128_S5000x128_1_0_0_1_n_n : DotDims S5000x182 S182x128 S5000x128 where
  lhsContracting := [1]
  rhsContracting := [0]
  lhsNonContracting := [0]
  rhsNonContracting := [1]
  lhsBatch := []
  rhsBatch := []
  wf := dot_S5000x182_S182x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v21) S5000x182.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x182.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S182x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S182x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x182 : Shape := ⟨2, ![100000, 182]⟩
abbrev S2x800000 : Shape := ⟨2, ![2, 800000]⟩
abbrev S128x182 : Shape := ⟨2, ![128, 182]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x182 : Shape := ⟨2, ![800000, 182]⟩
abbrev S100000x1 : Shape := ⟨2, ![100000, 1]⟩
abbrev S182x128 : Shape := ⟨2, ![182, 128]⟩
abbrev S100000x128 : Shape := ⟨2, ![100000, 128]⟩
abbrev S1x128 : Shape := ⟨2, ![1, 128]⟩
abbrev S800000x128 : Shape := ⟨2, ![800000, 128]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩
abbrev S100000 : Shape := ⟨1, ![100000]⟩

abbrev nBuf : Space → Nat
  | .hbm => 104
  | .vmem => 0
  | .smem => 0
  | _ => 0

abbrev bufTy : (tb : Table) → Fin (tcTables nBuf tb) → BufTy
  | .hbm, ⟨0, _⟩ => ⟨S100000x182, .f32⟩
  | .hbm, ⟨1, _⟩ => ⟨S2x800000, .i32⟩
  | .hbm, ⟨2, _⟩ => ⟨S128x182, .f32⟩
  | .hbm, ⟨3, _⟩ => ⟨S128x182, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S2x64, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x182, .f32⟩
  | .hbm, ⟨23, _⟩ => ⟨S_, .f32⟩
  | .hbm, ⟨24, _⟩ => ⟨S100000x182, .f32⟩
  | .hbm, ⟨25, _⟩ => ⟨S800000x1, .i32⟩
  | .hbm, ⟨26, _⟩ => ⟨S100000x182, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S100000x1, .f32⟩
  | .hbm, ⟨31, _⟩ => ⟨S800000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x182, .f32⟩
  | .hbm, ⟨37, _⟩ => ⟨S100000x182, .f32⟩
  | .hbm, ⟨38, _⟩ => ⟨S182x128, .f32⟩
  | .hbm, ⟨39, _⟩ => ⟨S100000x128, .f32⟩
  | .hbm, ⟨40, _⟩ => ⟨S182x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S100000x128, .f32⟩
  | .hbm, ⟨60, _⟩ => ⟨S800000x1, .i32⟩
  | .hbm, ⟨61, _⟩ => ⟨S100000x128, .f32⟩
  | .hbm, ⟨62, _⟩ => ⟨S_, .f32⟩
  | .hbm, ⟨63, _⟩ => ⟨S800000x1, .f32⟩
  | .hbm, ⟨64, _⟩ => ⟨S_, .f32⟩
  | .hbm, ⟨65, _⟩ => ⟨S100000x1, .f32⟩
  | .hbm, ⟨66, _⟩ => ⟨S800000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S128x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S64x2, .f32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v63 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x182 : S_.BroadcastsInDim S100000x182 (![] : Fin 0 → Fin S100000x182.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x182_0_1 : S100000x1.BroadcastsInDim S100000x182 (![0, 1] : Fin 2 → Fin S100000x182.rank)
  transposes_S128x182_S182x128_1_0 : S128x182.Transposes [1, 0] S182x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  gather_S100000x182_S800000x1_S800000x182_1_0_n_n_0_1_1182_wf : GatherDims.WF S100000x182 S800000x1 S800000x182 [1] [0] [] [0] [] 1 ![1, 182]
  scatter_S100000x182_S800000x1_S800000x182_1_0_0_1_wf : ScatterDims.WF S100000x182 S800000x1 S800000x182 [1] [0] [0] 1
  scatter_S100000x1_S800000x1_S800000x1_1_0_0_1_wf : ScatterDims.WF S100000x1 S800000x1 S800000x1 [1] [0] [0] 1
  dot_S100000x182_S182x128_S100000x128_1_0_0_1_n_n_wf : DotDims.WF S100000x182 S182x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x182_S800000x1_S800000x182_1_0_n_n_0_1_1182 : GatherDims S100000x182 S800000x1 S800000x182 where
  offsetDims := [1]
  collapsedSliceDims := [0]
  operandBatchingDims := []
  startIndicesBatchingDims := []
  startIndexMap := [0]
  indexVectorDim := 1
  sliceSizes := ![1, 182]
  wf := gather_S100000x182_S800000x1_S800000x182_1_0_n_n_0_1_1182_wf
def scatter_S100000x182_S800000x1_S800000x182_1_0_0_1 : ScatterDims S100000x182 S800000x1 S800000x182 where
  updateWindowDims := [1]
  insertedWindowDims := [0]
  scatterDimsToOperandDims := [0]
  indexVectorDim := 1
  wf := scatter_S100000x182_S800000x1_S800000x182_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x182_S182x128_S100000x128_1_0_0_1_n_n : DotDims S100000x182 S182x128 S100000x128 where
  lhsContracting := [1]
  rhsContracting := [0]
  lhsNonContracting := [0]
  rhsNonContracting := [1]
  lhsBatch := []
  rhsBatch := []
  wf := dot_S100000x182_S182x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelOut.lean ====
/-
  The kernel program's run with its result named.  @main is six segments — a stretch of host operations, a
  pipelined region, and so on three times — and the buffer contents at each boundary are a fold from the launch
  memory: a host stretch applies its operations, a region replaces its output array by what its write-backs leave.
  Every weakly fair execution terminates without a fault, and in the final state every unscoped buffer holds the
  last boundary's contents.  Read at the argument arrays this is the frame claim; read at the result buffer it says
  the result is the last boundary's contents there — the statement the value proof starts from.
-/
import proofs.«122803_j17755394802084_1_alg».proof.Proof.KernelIdealFrameP

set_option maxRecDepth 16384

noncomputable section

namespace Cert.KernelIdeal.Out

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents and the argument arrays end as launched. -/
theorem run_out : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Out

end
-- ==== Proof.Spec.lean ====
/-
  The mathematics of the three dense stages, stated once, away from either program.

  A node's layer-1 feature vector is  relu( mean · Wlᵀ + x · Wrᵀ + b ): entry (p, q) is the maximum of zero and
  the sum over the 182 input features k of  mean[p,k]·Wl[k,q], plus the same sum for  x  and  Wr,  plus the bias
  b[0,q].  Layer 2 is the same formula from 128 features to 64.  The last stage maps 64 features to two logits
  l[p,0], l[p,1]  (a sum over k plus a bias), subtracts their maximum  M[p]  and then the logarithm of
  exp(l[p,0] − M[p]) + exp(l[p,1] − M[p]):  the log-softmax of the row, in its shifted form.

  Everything is over the extended reals; sums are finite sums over the contracted axis; no law beyond the
  definitions is used, so nothing here needs the entries to be finite.
-/
import Idealize.ShloMosaic.PureOps.Ideal
import Idealize.ShloMosaic.Lib.ValueIdx

noncomputable section

namespace Cert.Layers

open Idealize.ShloMosaic Idealize.ShloMosaic.ValueIdx

/-- Layer 1 at node `p`, output feature `q`: relu of the two contractions over the 182 input features plus the bias. -/
def sage182 (mean x : FVec Ideal ⟨2, ![100000, 182]⟩ .f32) (wl wr : FVec Ideal ⟨2, ![182, 128]⟩ .f32)
    (b : FVec Ideal ⟨2, ![1, 128]⟩ .f32) : FVec Ideal ⟨2, ![100000, 128]⟩ .f32 := fun i =>
  max (((∑ k : Fin 182, mean (ix2 (n0 := 100000) (n1 := 182) ⟨(i 0).val, (i 0).isLt⟩ k) * wl (ix2 (n0 := 182) (n1 := 128) k ⟨(i 1).val, (i 1).isLt⟩))
        + (∑ k : Fin 182, x (ix2 (n0 := 100000) (n1 := 182) ⟨(i 0).val, (i 0).isLt⟩ k) * wr (ix2 (n0 := 182) (n1 := 128) k ⟨(i 1).val, (i 1).isLt⟩)))
        + b (ix2 (n0 := 1) (n1 := 128) 0 ⟨(i 1).val, (i 1).isLt⟩))
      (Ideal.ofBits .f32 0x00000000#32)

/-- Layer 2 at node `p`, output feature `q`: the same formula from 128 features to 64. -/
def sage128 (mean x : FVec Ideal ⟨2, ![100000, 128]⟩ .f32) (wl wr : FVec Ideal ⟨2, ![128, 64]⟩ .f32)
    (b : FVec Ideal ⟨2, ![1, 64]⟩ .f32) : FVec Ideal ⟨2, ![100000, 64]⟩ .f32 := fun i =>
  max (((∑ k : Fin 128, mean (ix2 (n0 := 100000) (n1 := 128) ⟨(i 0).val, (i 0).isLt⟩ k) * wl (ix2 (n0 := 128) (n1 := 64) k ⟨(i 1).val, (i 1).isLt⟩))
        + (∑ k : Fin 128, x (ix2 (n0 := 100000) (n1 := 128) ⟨(i 0).val, (i 0).isLt⟩ k) * wr (ix2 (n0 := 128) (n1 := 64) k ⟨(i 1).val, (i 1).isLt⟩)))
        + b (ix2 (n0 := 1) (n1 := 64) 0 ⟨(i 1).val, (i 1).isLt⟩))
      (Ideal.ofBits .f32 0x00000000#32)

/-- The logit of node `p` for class `q`: the contraction over the 64 hidden features plus the bias. -/
def logit (h : FVec Ideal ⟨2, ![100000, 64]⟩ .f32) (w : FVec Ideal ⟨2, ![64, 2]⟩ .f32) (b : FVec Ideal ⟨2, ![1, 2]⟩ .f32)
    (p : Fin 100000) (q : Fin 2) : EReal :=
  (∑ k : Fin 64, h (ix2 (n0 := 100000) (n1 := 64) p k) * w (ix2 (n0 := 64) (n1 := 2) k q)) + b (ix2 (n0 := 1) (n1 := 2) 0 q)

/-- The larger of a node's two logits, as the fold of `max` over the two classes from −∞. -/
def rowMax (h : FVec Ideal ⟨2, ![100000, 64]⟩ .f32) (w : FVec Ideal ⟨2, ![64, 2]⟩ .f32) (b : FVec Ideal ⟨2, ![1, 2]⟩ .f32)
    (p : Fin 100000) : EReal :=
  (Finset.univ : Finset (Fin 2)).fold max (Ideal.ofBits .f32 0xFF800000#32) (fun q => logit h w b p q)

/-- The shifted logit  l[p,q] − M[p]. -/
def shifted (h : FVec Ideal ⟨2, ![100000, 64]⟩ .f32) (w : FVec Ideal ⟨2, ![64, 2]⟩ .f32) (b : FVec Ideal ⟨2, ![1, 2]⟩ .f32)
    (p : Fin 100000) (q : Fin 2) : EReal :=
  logit h w b p q - rowMax h w b p

/-- The log-softmax of a node's two logits, in its shifted form:  (l − M) − log Σ_q exp(l[q] − M). -/
def logSoftmax2 (h : FVec Ideal ⟨2, ![100000, 64]⟩ .f32) (w : FVec Ideal ⟨2, ![64, 2]⟩ .f32) (b : FVec Ideal ⟨2, ![1, 2]⟩ .f32) :
    FVec Ideal ⟨2, ![100000, 2]⟩ .f32 := fun i =>
  shifted h w b ⟨(i 0).val, (i 0).isLt⟩ ⟨(i 1).val, (i 1).isLt⟩
    - Ideal.log (∑ q : Fin 2, Ideal.exp (shifted h w b ⟨(i 0).val, (i 0).isLt⟩ q))

end Cert.Layers

end
-- ==== Proof.KWalk1.lean ====
/-
  The kernel program's buffer contents, followed from the launch to the result.

  Between the launch and the first region the host computes, from the features and the edge index, the neighbour
  mean, and lays out the first layer's weights and bias; these are the same host operations, on the same arguments,
  as the reference's, so each operand array of the first region IS the reference's stage of the launch contents.
  The region leaves its output array at the first layer's function of those operands — the reference's first-layer
  stage.  The second stretch of host operations computes the neighbour mean of that array with the reference's very
  operations, so the second region's operands are again the reference's stages, and so on to the result.  The
  aggregation (gather, scatter-add, divide) is never opened: it is the same closed function on both sides.

  The one place where the two programs spell a value differently is each bias: the kernel reshapes the vector to a
  one-row matrix where the reference broadcasts it to one; both read entry q of the vector at position (0, q).
-/
import proofs.«122803_j17755394802084_1_alg».proof.Proof.KernelIdealFrameP
import proofs.«122803_j17755394802084_1_alg».proof.Proof.ReferenceIdealReadP
import proofs.«122803_j17755394802084_1_alg».proof.Proof.Spec
import Idealize.ShloMosaic.Lib.Pipeline.Value

set_option maxRecDepth 16384

noncomputable section

namespace Cert.KernelIdeal.Walk

open Cert.KernelIdeal Cert.KernelIdeal.Gen Cert.KernelIdeal.GenP
open Idealize.ShloMosaic Idealize.ShloMosaic.TcCoe Idealize.SL.Sem Idealize.ShloMosaic.StableHlo

/-! ## A vector as a one-row matrix: the reshape and the broadcast agree -/

theorem row128 (a : FVec Ideal ⟨1, ![128]⟩ .f32) (h : (⟨1, ![128]⟩ : Shape).ShapeCasts ⟨2, ![1, 128]⟩) :
    shapeCast ⟨2, ![1, 128]⟩ a h = Cert.ReferenceIdeal.ReadP.val_main_v27 (F := Ideal) a := by
  funext j
  rw [Cert.ReferenceIdeal.ReadP.val_main_v27_apply]
  refine (shapeCast_addUnit_apply (n := 1) ![128] a h j).trans (congrArg a ?_)
  funext d; match d with | ⟨0, _⟩ => exact Fin.ext rfl

theorem row64 (a : FVec Ideal ⟨1, ![64]⟩ .f32) (h : (⟨1, ![64]⟩ : Shape).ShapeCasts ⟨2, ![1, 64]⟩) :
    shapeCast ⟨2, ![1, 64]⟩ a h = Cert.ReferenceIdeal.ReadP.val_main_v54 (F := Ideal) a := by
  funext j
  rw [Cert.ReferenceIdeal.ReadP.val_main_v54_apply]
  refine (shapeCast_addUnit_apply (n := 1) ![64] a h j).trans (congrArg a ?_)
  funext d; match d with | ⟨0, _⟩ => exact Fin.ext rfl

theorem row2 (a : FVec Ideal ⟨1, ![2]⟩ .f32) (h : (⟨1, ![2]⟩ : Shape).ShapeCasts ⟨2, ![1, 2]⟩) :
    shapeCast ⟨2, ![1, 2]⟩ a h = Cert.ReferenceIdeal.ReadP.val_main_v60 (F := Ideal) a := by
  funext j
  rw [Cert.ReferenceIdeal.ReadP.val_main_v60_apply]
  refine (shapeCast_addUnit_apply (n := 1) ![2] a h j).trans (congrArg a ?_)
  funext d; match d with | ⟨0, _⟩ => exact Fin.ext rfl

variable (m : (ℓ : Loc nD τ sig) → Buf (Elt Ideal) ℓ) (ρ : Dev nD → PrngReg) (c : Dev nD)

/-! ## The first region's operands at entry -/

set_option maxHeartbeats 4000000 in
theorem entry0_mean : GenP.V1 m ρ c main_v21 = Cert.ReferenceIdeal.ReadP.val_main_v21 (F := Ideal) (m ((c.tc : Thread nD τ).loc main_arg0)) (m ((c.tc : Thread nD τ).loc main_arg1)) := by
  show StableHlo.after GenP.hostOps0 (GenP.W0 m ρ c) (Proc.devRef .tc main_v21) = _
  after_results_simp
  rfl

theorem entry0_x : GenP.V1 m ρ c main_arg0 = (m ((c.tc : Thread nD τ).loc main_arg0)) := by
  show StableHlo.after GenP.hostOps0 (GenP.W0 m ρ c) (Proc.devRef .tc main_arg0) = _
  after_results

theorem entry0_wl : GenP.V1 m ρ c main_v22 = Cert.ReferenceIdeal.ReadP.val_main_v22 (F := Ideal) (m ((c.tc : Thread nD τ).loc main_arg2)) := by
  show StableHlo.after GenP.hostOps0 (GenP.W0 m ρ c) (Proc.devRef .tc main_v22) = _
  after_results
  rfl

theorem entry0_wr : GenP.V1 m ρ c main_v23 = Cert.ReferenceIdeal.ReadP.val_main_v24 (F := Ideal) (m ((c.tc : Thread nD τ).loc main_arg3)) := by
  show StableHlo.after GenP.hostOps0 (GenP.W0 m ρ c) (Proc.devRef .tc main_v23) = _
  after_results
  rfl

theorem entry0_b : GenP.V1 m ρ c main_v24 = Cert.ReferenceIdeal.ReadP.val_main_v27 (F := Ideal) (m ((c.tc : Thread nD τ).loc main_arg4)) := by
  show StableHlo.after GenP.hostOps0 (GenP.W0 m ρ c) (Proc.devRef .tc main_v24) = _
  after_results
  exact row128 _ _

/-- What the first stretch leaves in the buffers later stretches read: the two rows of the edge index and the later arguments. -/
theorem first_v1 : GenP.W1 m ρ c (Proc.devRef .tc main_v1) = Cert.ReferenceIdeal.ReadP.val_main_v1 (F := Ideal) (m ((c.tc : Thread nD τ).loc main_arg1)) := by
  show StableHlo.after GenP.hostOps0 (GenP.W0 m ρ c) (Proc.devRef .tc main_v1) = _
  after_results
  rfl

theorem first_v3 : GenP.W1 m ρ c (Proc.devRef .tc main_v3) = Cert.ReferenceIdeal.ReadP.val_main_v3 (F := Ideal) (m ((c.tc : Thread nD τ).loc main_arg1)) := by
  show StableHlo.after GenP.hostOps0 (GenP.W0 m ρ c) (Proc.devRef .tc main_v3) = _
  after_results
  rfl

theorem first_arg5 : GenP.W1 m ρ c (Proc.devRef .tc main_arg5) = (m ((c.tc : Thread nD τ).loc main_arg5)) := by
  show StableHlo.after GenP.hostOps0 (GenP.W0 m ρ c) (Proc.devRef .tc main_arg5) = _
  after_results

theorem first_arg6 : GenP.W1 m ρ c (Proc.devRef .tc main_arg6) = (m ((c.tc : Thread nD τ).loc main_arg6)) := by
  show StableHlo.after GenP.hostOps0 (GenP.W0 m ρ c) (Proc.devRef .tc main_arg6) = _
  after_results

theorem first_arg7 : GenP.W1 m ρ c (Proc.devRef .tc main_arg7) = (m ((c.tc : Thread nD τ).loc main_arg7)) := by
  show StableHlo.after GenP.hostOps0 (GenP.W0 m ρ c) (Proc.devRef .tc main_arg7) = _
  after_results

theorem first_arg8 : GenP.W1 m ρ c (Proc.devRef .tc main_arg8) = (m ((c.tc : Thread nD τ).loc main_arg8)) := by
  show StableHlo.after GenP.hostOps0 (GenP.W0 m ρ c) (Proc.devRef .tc main_arg8) = _
  after_results

theorem first_arg9 : GenP.W1 m ρ c (Proc.devRef .tc main_arg9) = (m ((c.tc : Thread nD τ).loc main_arg9)) := by
  show StableHlo.after GenP.hostOps0 (GenP.W0 m ρ c) (Proc.devRef .tc main_arg9) = _
  after_results

end Cert.KernelIdeal.Walk

end
-- ==== Proof.KWalk2.lean ====
/-
  The kernel program's buffer contents, continued: out of each region and through the next stretch of host operations.

  A region's output array is the layer's function of its operand arrays as the region finds them; those operands are
  the reference's stages of the launch contents, so the output is the reference's next stage.  The stretch after it
  applies the reference's own aggregation to that array and to the edge index's rows, which earlier operations left
  untouched; a buffer no operation of a stretch writes, and no region owns, keeps its contents.
-/
import proofs.«122803_j17755394802084_1_alg».proof.Proof.KWalk1

set_option maxRecDepth 16384

noncomputable section

namespace Cert.KernelIdeal.Walk

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers the first region does not own -/

theorem second_v1 : GenP.W2 m ρ c (Proc.devRef .tc main_v1) = Cert.ReferenceIdeal.ReadP.val_main_v1 (F := Ideal) (m ((c.tc : Thread nD τ).loc main_arg1)) :=
  (GenP.W2_of_ne m ρ c main_v1 (by decide)).trans (first_v1 m ρ c)
theorem second_v3 : GenP.W2 m ρ c (Proc.devRef .tc main_v3) = Cert.ReferenceIdeal.ReadP.val_main_v3 (F := Ideal) (m ((c.tc : Thread nD τ).loc main_arg1)) :=
  (GenP.W2_of_ne m ρ c main_v3 (by decide)).trans (first_v3 m ρ c)
theorem second_arg5 : GenP.W2 m ρ c (Proc.devRef .tc main_arg5) = (m ((c.tc : Thread nD τ).loc main_arg5)) :=
  (GenP.W2_of_ne m ρ c main_arg5 (by decide)).trans (first_arg5 m ρ c)
theorem second_arg6 : GenP.W2 m ρ c (Proc.devRef .tc main_arg6) = (m ((c.tc : Thread nD τ).loc main_arg6)) :=
  (GenP.W2_of_ne m ρ c main_arg6 (by decide)).trans (first_arg6 m ρ c)
theorem second_arg7 : GenP.W2 m ρ c (Proc.devRef .tc main_arg7) = (m ((c.tc : Thread nD τ).loc main_arg7)) :=
  (GenP.W2_of_ne m ρ c main_arg7 (by decide)).trans (first_arg7 m ρ c)
theorem second_arg8 : GenP.W2 m ρ c (Proc.devRef .tc main_arg8) = (m ((c.tc : Thread nD τ).loc main_arg8)) :=
  (GenP.W2_of_ne m ρ c main_arg8 (by decide)).trans (first_arg8 m ρ c)
theorem second_arg9 : GenP.W2 m ρ c (Proc.devRef .tc main_arg9) = (m ((c.tc : Thread nD τ).loc main_arg9)) :=
  (GenP.W2_of_ne m ρ c main_arg9 (by decide)).trans (first_arg9 m ρ c)

/-- The second stretch writes neither of the last two arguments, and the second region owns neither. -/
theorem third_arg8 : GenP.W4 m ρ c (Proc.devRef .tc main_arg8) = (m ((c.tc : Thread nD τ).loc main_arg8)) := by
  refine (GenP.W4_of_ne m ρ c main_arg8 (by decide)).trans ?_
  show StableHlo.after GenP.hostOps1 (GenP.W2 m ρ c) (Proc.devRef .tc main_arg8) = _
  after_results_simp
  exact second_arg8 m ρ c
theorem third_arg9 : GenP.W4 m ρ c (Proc.devRef .tc main_arg9) = (m ((c.tc : Thread nD τ).loc main_arg9)) := by
  refine (GenP.W4_of_ne m ρ c main_arg9 (by decide)).trans ?_
  show StableHlo.after GenP.hostOps1 (GenP.W2 m ρ c) (Proc.devRef .tc main_arg9) = _
  after_results_simp
  exact second_arg9 m ρ c

/-! ## The regions' output arrays and the reference's layers, taken as given here -/

variable
  (reg0 : ∀ (V : (c : Dev nD) → (b : Ref sig .tc) → Buf (Elt Ideal) ((c : Thread nD τ).loc b)) (c : Dev nD),
    (GenP.dat0 (F := Ideal) V c).arrAt 5 cfg0.N
      = Cert.Layers.sage182 (V c main_v21) (V c main_arg0) (V c main_v22) (V c main_v23) (V c main_v24))
  (reg1 : ∀ (V : (c : Dev nD) → (b : Ref sig .tc) → Buf (Elt Ideal) ((c : Thread nD τ).loc b)) (c : Dev nD),
    (GenP.dat1 (F := Ideal) V c).arrAt 5 cfg1.N
      = Cert.Layers.sage128 (V c main_v43) (V c main_v25) (V c main_v44) (V c main_v45) (V c main_v46))
  (reg2 : ∀ (V : (c : Dev nD) → (b : Ref sig .tc) → Buf (Elt Ideal) ((c : Thread nD τ).loc b)) (c : Dev nD),
    (GenP.dat2 (F := Ideal) V c).arrAt 3 cfg2.N
      = Cert.Layers.logSoftmax2 (V c main_v47) (V c main_v48) (V c main_v49))
  (lay0 : ∀ x0 x1 x2 x3 x4, Cert.ReferenceIdeal.ReadP.val_main_v30 (F := Ideal) x0 x1 x2 x3 x4
      = Cert.Layers.sage182 (Cert.ReferenceIdeal.ReadP.val_main_v21 (F := Ideal) x0 x1) x0 (Cert.ReferenceIdeal.ReadP.val_main_v22 (F := Ideal) x2) (Cert.ReferenceIdeal.ReadP.val_main_v24 (F := Ideal) x3) (Cert.ReferenceIdeal.ReadP.val_main_v27 (F := Ideal) x4))
  (lay1 : ∀ x0 x1 x2 x3 x4 x5 x6 x7, Cert.ReferenceIdeal.ReadP.val_main_v57 (F := Ideal) x0 x1 x2 x3 x4 x5 x6 x7
      = Cert.Layers.sage128 (Cert.ReferenceIdeal.ReadP.val_main_v48 (F := Ideal) x0 x1 x2 x3 x4) (Cert.ReferenceIdeal.ReadP.val_main_v30 (F := Ideal) x0 x1 x2 x3 x4) (Cert.ReferenceIdeal.ReadP.val_main_v49 (F := Ideal) x5) (Cert.ReferenceIdeal.ReadP.val_main_v51 (F := Ideal) x6) (Cert.ReferenceIdeal.ReadP.val_main_v54 (F := Ideal) x7))
  (lay2 : ∀ x0 x1 x2 x3 x4 x5 x6 x7 x8 x9, Cert.ReferenceIdeal.ReadP.val_main_v63 (F := Ideal) x0 x1 x2 x3 x4 x5 x6 x7 x8 x9
      = Cert.Layers.logSoftmax2 (Cert.ReferenceIdeal.ReadP.val_main_v57 (F := Ideal) x0 x1 x2 x3 x4 x5 x6 x7) (Cert.ReferenceIdeal.ReadP.val_main_v58 (F := Ideal) x8) (Cert.ReferenceIdeal.ReadP.val_main_v60 (F := Ideal) x9))

include reg0 lay0 in
/-- Out of the first region: its output array is the reference's first-layer stage. -/
theorem exit0_h1 : GenP.W2 m ρ c (Proc.devRef .tc main_v25) = Cert.ReferenceIdeal.ReadP.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (GenP.W2_arr m ρ c 5).trans ((reg0 (GenP.V1 m ρ) c).trans ?_)
  rw [entry0_mean, entry0_x, entry0_wl, entry0_wr, entry0_b]
  exact (lay0 _ _ _ _ _).symm

/-! ## The second region's operands at entry -/

include reg0 lay0 in
set_option maxHeartbeats 4000000 in
theorem entry1_mean : GenP.V3 m ρ c main_v43 = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after GenP.hostOps1 (GenP.W2 m ρ c) (Proc.devRef .tc main_v43) = _
  after_results_simp
  rw [exit0_h1 m ρ c reg0 lay0, second_v1, second_v3]
  rfl

include reg0 lay0 in
theorem entry1_h1 : GenP.V3 m ρ c main_v25 = Cert.ReferenceIdeal.ReadP.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after GenP.hostOps1 (GenP.W2 m ρ c) (Proc.devRef .tc main_v25) = _
  after_results_simp
  exact exit0_h1 m ρ c reg0 lay0

theorem entry1_wl : GenP.V3 m ρ c main_v44 = Cert.ReferenceIdeal.ReadP.val_main_v49 (F := Ideal) (m ((c.tc : Thread nD τ).loc main_arg5)) := by
  show StableHlo.after GenP.hostOps1 (GenP.W2 m ρ c) (Proc.devRef .tc main_v44) = _
  after_results_simp
  rw [second_arg5]
  rfl

theorem entry1_wr : GenP.V3 m ρ c main_v45 = Cert.ReferenceIdeal.ReadP.val_main_v51 (F := Ideal) (m ((c.tc : Thread nD τ).loc main_arg6)) := by
  show StableHlo.after GenP.hostOps1 (GenP.W2 m ρ c) (Proc.devRef .tc main_v45) = _
  after_results_simp
  rw [second_arg6]
  rfl

theorem entry1_b : GenP.V3 m ρ c main_v46 = Cert.ReferenceIdeal.ReadP.val_main_v54 (F := Ideal) (m ((c.tc : Thread nD τ).loc main_arg7)) := by
  show StableHlo.after GenP.hostOps1 (GenP.W2 m ρ c) (Proc.devRef .tc main_v46) = _
  after_results_simp
  rw [second_arg7]
  exact row64 _ _

include reg0 lay0 reg1 lay1 in
/-- Out of the second region: its output array is the reference's second-layer stage. -/
theorem exit1_h2 : GenP.W4 m ρ c (Proc.devRef .tc main_v47) = Cert.ReferenceIdeal.ReadP.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (GenP.W4_arr m ρ c 5).trans ((reg1 (GenP.V3 m ρ) c).trans ?_)
  rw [entry1_mean m ρ c reg0 lay0, entry1_h1 m ρ c reg0 lay0, entry1_wl, entry1_wr, entry1_b]
  exact (lay1 _ _ _ _ _ _ _ _).symm

/-! ## The last region's operands at entry, and the result -/

include reg0 lay0 reg1 lay1 in
theorem entry2_h2 : GenP.V5 m ρ c main_v47 = Cert.ReferenceIdeal.ReadP.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after GenP.hostOps2 (GenP.W4 m ρ c) (Proc.devRef .tc main_v47) = _
  after_results_simp
  exact exit1_h2 m ρ c reg0 reg1 lay0 lay1

theorem entry2_w : GenP.V5 m ρ c main_v48 = Cert.ReferenceIdeal.ReadP.val_main_v58 (F := Ideal) (m ((c.tc : Thread nD τ).loc main_arg8)) := by
  show StableHlo.after GenP.hostOps2 (GenP.W4 m ρ c) (Proc.devRef .tc main_v48) = _
  after_results_simp
  rw [third_arg8]
  rfl

theorem entry2_b : GenP.V5 m ρ c main_v49 = Cert.ReferenceIdeal.ReadP.val_main_v60 (F := Ideal) (m ((c.tc : Thread nD τ).loc main_arg9)) := by
  show StableHlo.after GenP.hostOps2 (GenP.W4 m ρ c) (Proc.devRef .tc main_v49) = _
  after_results_simp
  rw [third_arg9]
  exact row2 _ _

include reg0 lay0 reg1 lay1 reg2 lay2 in
/-- The result buffer at the last boundary is the reference's result stage of the launch contents. -/
theorem result_eq : GenP.W6 m ρ c (Proc.devRef .tc main_v50) = Cert.ReferenceIdeal.ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (GenP.W6_arr m ρ c 3).trans ((reg2 (GenP.V5 m ρ) c).trans ?_)
  rw [entry2_h2 m ρ c reg0 reg1 lay0 lay1, entry2_w, entry2_b]
  exact (lay2 _ _ _ _ _ _ _ _ _ _).symm

end Cert.KernelIdeal.Walk

end
-- ==== Proof.Region0.lean ====
/-
  Layer 1 of the network on the tiled side: the output array of the first dense region is the layer's whole-array formula.

  The region walks 20 grid points; point t holds rows 5000·t … 5000·t + 4999 of the aggregated mean and of the node
  features (two 5000x182 blocks), the two 182x128 weight matrices and the 1x128 bias row whole, and writes rows
  5000·t … 5000·t + 4999 of the 100000x128 output. On the extended reals every format change is the identity and a
  product into a zero accumulator is the plain sum over the contracted axis, so the body's value at block coordinate
  (p, q) is  max((Σ_k mean[5000t+p, k]·Wl[k, q] + Σ_k x[5000t+p, k]·Wr[k, q]) + b[0, q], 0):  the layer's formula at row
  5000t + p, the same expression tree entry by entry; nothing about finiteness is used. The 20 row blocks tile the
  100000 rows, so the array after the last point is the formula at every index, whatever the operand arrays hold.
-/
import proofs.«122803_j17755394802084_1_alg».proof.Proof.KernelIdealFrameP
import proofs.«122803_j17755394802084_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The left operand of the block's product is read at the output's row (axis 0 is kept, not contracted). -/
theorem lhs_row (i : S5000x128.Idx) (c : dot_S5000x182_S182x128_S5000x128_1_0_0_1_n_n.contr.Idx) :
    (dot_S5000x182_S182x128_S5000x128_1_0_0_1_n_n.lhsIdx i c 0).val = (i 0).val := by
  unfold DotDims.lhsIdx
  rw [dif_neg (show ¬(0 : Fin S5000x182.rank) ∈ dot_S5000x182_S182x128_S5000x128_1_0_0_1_n_n.lhsBatch by decide), dif_pos (show (0 : Fin S5000x182.rank) ∈ dot_S5000x182_S182x128_S5000x128_1_0_0_1_n_n.lhsNonContracting by decide)]
  rfl
/-- ... and at the contraction position on its feature axis. -/
theorem lhs_feat (i : S5000x128.Idx) (c : dot_S5000x182_S182x128_S5000x128_1_0_0_1_n_n.contr.Idx) :
    (dot_S5000x182_S182x128_S5000x128_1_0_0_1_n_n.lhsIdx i c 1).val = (c ⟨0, by decide⟩).val :=
  dot_S5000x182_S182x128_S5000x128_1_0_0_1_n_n.lhsIdx_val_of_single rfl i c
/-- The right operand is read at the contraction position on its feature axis ... -/
theorem rhs_feat (i : S5000x128.Idx) (c : dot_S5000x182_S182x128_S5000x128_1_0_0_1_n_n.contr.Idx) :
    (dot_S5000x182_S182x128_S5000x128_1_0_0_1_n_n.rhsIdx i c 0).val = (c ⟨0, by decide⟩).val :=
  dot_S5000x182_S182x128_S5000x128_1_0_0_1_n_n.rhsIdx_val_of_single rfl i c
/-- ... and at the output's column. -/
theorem rhs_col (i : S5000x128.Idx) (c : dot_S5000x182_S182x128_S5000x128_1_0_0_1_n_n.contr.Idx) :
    (dot_S5000x182_S182x128_S5000x128_1_0_0_1_n_n.rhsIdx i c 1).val = (i 1).val := by
  unfold DotDims.rhsIdx
  rw [dif_neg (show ¬(1 : Fin S182x128.rank) ∈ dot_S5000x182_S182x128_S5000x128_1_0_0_1_n_n.rhsBatch by decide), dif_pos (show (1 : Fin S182x128.rank) ∈ dot_S5000x182_S182x128_S5000x128_1_0_0_1_n_n.rhsNonContracting by decide)]
  rfl

/-- The block's product of a 5000x182 block with a 182x128 matrix into a zero accumulator, at row p and column q:
    the plain sum over the 182 contracted features. -/
theorem matmul_at (l : FVec Ideal S5000x182 .bf16) (r : FVec Ideal S182x128 .bf16) (p : Fin 5000) (q : Fin 128) :
    matmul dot_S5000x182_S182x128_S5000x128_1_0_0_1_n_n none l r (constant (F := Ideal) S5000x128 .f32 0x00000000#32) (ix2 p q)
      = ∑ k : Fin 182, l (ix2 p k) * r (ix2 k q) := by
  simp only [matmul]
  rw [Ideal.matmul_constant_zero_apply, ← Equiv.sum_comp (contrEquiv1 dot_S5000x182_S182x128_S5000x128_1_0_0_1_n_n 182 rfl rfl).symm]
  refine Finset.sum_congr rfl fun k _ => ?_
  have hk := contrEquiv1_symm_val dot_S5000x182_S182x128_S5000x128_1_0_0_1_n_n 182 rfl rfl k
  have el : dot_S5000x182_S182x128_S5000x128_1_0_0_1_n_n.lhsIdx (ix2 p q) ((contrEquiv1 dot_S5000x182_S182x128_S5000x128_1_0_0_1_n_n 182 rfl rfl).symm k) = ix2 p k := funext fun a => Fin.ext (by
    match a with
    | ⟨0, _⟩ => exact lhs_row _ _
    | ⟨1, _⟩ => exact (lhs_feat _ _).trans hk)
  have er : dot_S5000x182_S182x128_S5000x128_1_0_0_1_n_n.rhsIdx (ix2 p q) ((contrEquiv1 dot_S5000x182_S182x128_S5000x128_1_0_0_1_n_n 182 rfl rfl).symm k) = ix2 k q := funext fun a => Fin.ext (by
    match a with
    | ⟨0, _⟩ => exact (rhs_feat _ _).trans hk
    | ⟨1, _⟩ => exact rhs_col _ _)
  rw [el, er]

/-- The body's value at row p, column q of the block: the two contractions over the 182 features added, plus the bias row
    at column q, then the maximum with the zero word. Every format change in between is the identity on the extended reals. -/
theorem pay_at (x0 x1 : Vec Ideal S5000x182 .f32) (x2 x3 : Vec Ideal S182x128 .f32) (x4 : Vec Ideal S1x128 .f32) (p : Fin 5000) (q : Fin 128) :
    k0_pay1 x0 x1 x2 x3 x4 (ix2 p q)
      = max (((∑ k : Fin 182, (x0 (ix2 p k) : EReal) * x2 (ix2 k q)) + (∑ k : Fin 182, (x1 (ix2 p k) : EReal) * x3 (ix2 k q))) + x4 (ix2 0 q))
          (Ideal.ofBits .f32 0x00000000#32) := by
  unfold k0_pay1
  simp only [shapeCast_self]
  rw [maximumf_apply, addf_apply, addf_apply, broadcast_apply, matmul_at, matmul_at, broadcastTo_1b_ab_apply]
  simp only [truncf_apply]
  rfl

/-- The zero offsets of every access of the body, as the constant function. -/
theorem hz : (![0, 0] : Fin 2 → Nat) = fun _ => 0 := funext fun a => by fin_cases a <;> rfl

/-- One grid point's block of the output against the whole-array formula. The two row-tiled operands' blocks hold rows
    r·5000 … r·5000+4999 of their arrays, the weight and bias blocks are their whole arrays; then the body's value at
    block coordinate j is the layer's formula at row r·5000 + j₀, column j₁: the same two sums over the 182 features,
    the same bias entry, the same maximum with zero, term by term. -/
theorem point_eq (A0 A1 : FVec Ideal S100000x182 .f32) (B2 B3 : FVec Ideal S182x128 .f32) (B4 : FVec Ideal S1x128 .f32)
    (x0 x1 : Vec Ideal S5000x182 .f32) (x2 x3 : Vec Ideal S182x128 .f32) (x4 : Vec Ideal S1x128 .f32) (r : Nat)
    (h0 : ∀ (y : S5000x182.Idx) (i : S100000x182.Idx), (i 0).val = r * 5000 + (y 0).val → (i 1).val = (y 1).val → x0 y = A0 i)
    (h1 : ∀ (y : S5000x182.Idx) (i : S100000x182.Idx), (i 0).val = r * 5000 + (y 0).val → (i 1).val = (y 1).val → x1 y = A1 i)
    (h2 : x2 = B2) (h3 : x3 = B3) (h4 : x4 = B4)
    (j : S5000x128.Idx) (i : S100000x128.Idx) (hi0 : (i 0).val = r * 5000 + (j 0).val) (hi1 : (i 1).val = (j 1).val) :
    k0_pay1 x0 x1 x2 x3 x4 j = Cert.Layers.sage182 A0 A1 B2 B3 B4 i := by
  obtain ⟨p, q, rfl⟩ : ∃ (p : Fin 5000) (q : Fin 128), j = ix2 p q := ⟨j 0, j 1, eq_ix2 j⟩
  rw [pay_at]
  subst h2 h3 h4
  unfold Cert.Layers.sage182
  have eq : (⟨(i 1).val, (i 1).isLt⟩ : Fin 128) = q := Fin.ext hi1
  rw [eq]
  have e0 : ∀ k : Fin 182, (x0 (ix2 p k) : EReal) = A0 (ix2 (n0 := 100000) (n1 := 182) ⟨(i 0).val, (i 0).isLt⟩ k) :=
    fun k => h0 (ix2 p k) _ hi0 rfl
  have e1 : ∀ k : Fin 182, (x1 (ix2 p k) : EReal) = A1 (ix2 (n0 := 100000) (n1 := 182) ⟨(i 0).val, (i 0).isLt⟩ k) :=
    fun k => h1 (ix2 p k) _ hi0 rfl
  simp only [e0, e1]

/-- The printed index maps over the 20 grid points: the two row-tiled operands and the output sit at block row t, block
    column 0; the two weight matrices and the bias row are one block each, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Array
variable (V : (c : Dev nD) → (b : Ref sig .tc) → Buf (Elt Ideal) ((c : Thread nD τ).loc b))

/-- What grid point t writes back to the output array is block t of the layer's whole-array formula of the five operand
    arrays as the region finds them. -/
theorem flushed_eq (c : Dev nD) (t : Fin cfg0.N) :
    (GenP.dat0 (F := Ideal) V c).flushed 5 t = ((cfg0.win 5).blk t).view.read (Elt Ideal)
      (Cert.Layers.sage182 (V c main_v21) (V c main_arg0) (V c main_v22) (V c main_v23) (V c main_v24)) := by
  show (cfg0.win 5).cut (grid0.coords t) ((GenP.dat0 V c).after 5 t) = _
  rw [GenP.after0_5]
  unfold GenP.out0_5
  rw [View.canon_unit_zero hz]
  simp only [View.ld_unit_zero (S := S5000x182) hz, View.ld_unit_zero (S := S182x128) hz, View.ld_unit_zero (S := S1x128) hz]
  obtain ⟨a0, a1, b0, b1, c0, c1, d0, d1, e0, e1, f0, f1⟩ := idx_facts t
  funext j
  show k0_pay1 (GenP.iblk0 V c 0 t) (GenP.iblk0 V c 1 t) (GenP.iblk0 V c 2 t) (GenP.iblk0 V c 3 t) (GenP.iblk0 V c 4 t) j
    = Cert.Layers.sage182 (V c main_v21) (V c main_arg0) (V c main_v22) (V c main_v23) (V c main_v24) (((cfg0.win 5).blk t).view.emb j)
  refine point_eq _ _ _ _ _ _ _ _ _ _ t.val ?_ ?_ ?_ ?_ ?_ j _ ?_ ?_
  · intro y i hi0 hi1
    show V c main_v21 (((cfg0.win 0).blk t).view.emb y) = V c main_v21 i
    refine congrArg _ (funext fun a => Fin.ext ?_)
    match a with
    | ⟨0, _⟩ => show win0_0.index t (0 : Fin 2) * 5000 + 1 * (y 0).val = (i 0).val; rw [a0, hi0]; omega
    | ⟨1, _⟩ => show win0_0.index t (1 : Fin 2) * 182 + 1 * (y 1).val = (i 1).val; rw [a1, hi1]; omega
  · intro y i hi0 hi1
    show V c main_arg0 (((cfg0.win 1).blk t).view.emb y) = V c main_arg0 i
    refine congrArg _ (funext fun a => Fin.ext ?_)
    match a with
    | ⟨0, _⟩ => show win0_1.index t (0 : Fin 2) * 5000 + 1 * (y 0).val = (i 0).val; rw [b0, hi0]; omega
    | ⟨1, _⟩ => show win0_1.index t (1 : Fin 2) * 182 + 1 * (y 1).val = (i 1).val; rw [b1, hi1]; omega
  · funext y
    show V c main_v22 (((cfg0.win 2).blk t).view.emb y) = V c main_v22 y
    refine congrArg _ (funext fun a => Fin.ext ?_)
    match a with
    | ⟨0, _⟩ => show win0_2.index t (0 : Fin 2) * 182 + 1 * (y 0).val = (y 0).val; rw [c0]; omega
    | ⟨1, _⟩ => show win0_2.index t (1 : Fin 2) * 128 + 1 * (y 1).val = (y 1).val; rw [c1]; omega
  · funext y
    show V c main_v23 (((cfg0.win 3).blk t).view.emb y) = V c main_v23 y
    refine congrArg _ (funext fun a => Fin.ext ?_)
    match a with
    | ⟨0, _⟩ => show win0_3.index t (0 : Fin 2) * 182 + 1 * (y 0).val = (y 0).val; rw [d0]; omega
    | ⟨1, _⟩ => show win0_3.index t (1 : Fin 2) * 128 + 1 * (y 1).val = (y 1).val; rw [d1]; omega
  · funext y
    show V c main_v24 (((cfg0.win 4).blk t).view.emb y) = V c main_v24 y
    refine congrArg _ (funext fun a => Fin.ext ?_)
    match a with
    | ⟨0, _⟩ => show win0_4.index t (0 : Fin 2) * 1 + 1 * (y 0).val = (y 0).val; rw [e0]; omega
    | ⟨1, _⟩ => show win0_4.index t (1 : Fin 2) * 128 + 1 * (y 1).val = (y 1).val; rw [e1]; omega
  · show win0_5.index t (0 : Fin 2) * 5000 + 1 * (j 0).val = t.val * 5000 + (j 0).val; rw [f0]; omega
  · show win0_5.index t (1 : Fin 2) * 128 + 1 * (j 1).val = (j 1).val; rw [f1]; omega

end Array

/-- An index of the output array lies in point t's block iff, on each axis, its coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The 20 blocks of 5000 rows tile the 100000 rows: row r lies in the block of point r / 5000, and every column in the
    one block column. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by show (i 0).val / 5000 < grid0.N; rw [GenP.N_0]; omega
  obtain ⟨-, -, -, -, -, -, -, -, -, -, f0, f1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [f1]; omega

section Array
variable (V : (c : Dev nD) → (b : Ref sig .tc) → Buf (Elt Ideal) ((c : Thread nD τ).loc b))

/-- The output array after the region's 20 points: the layer's formula of the five operand arrays, at every index. -/
theorem array_eq (c : Dev nD) :
    (GenP.dat0 (F := Ideal) V c).arrAt 5 cfg0.N
      = Cert.Layers.sage182 (V c main_v21) (V c main_arg0) (V c main_v22) (V c main_v23) (V c main_v24) :=
  (GenP.dat0 (F := Ideal) V c).arrAt_eq_of_cover 5 _ (fun t _ => flushed_eq V c t) cover

end Array

end Cert.KernelIdeal.Region0

end
-- ==== Proof.Region1.lean ====
/-
  Layer 2 of the network on the tiled side: the output array of the second dense region is the layer's whole-array formula.

  The region walks 20 grid points; point t holds rows 5000·t … 5000·t + 4999 of the aggregated mean of the hidden features
  and of the hidden features themselves (two 5000x128 blocks), the two 128x64 weight matrices and the 1x64 bias row
  whole, and writes rows 5000·t … 5000·t + 4999 of the 100000x64 output. On the extended reals every format change is
  the identity and a product into a zero accumulator is the plain sum over the contracted axis, so the body's value at
  block coordinate (p, q) is  max((Σ_k mean[5000t+p, k]·Wl[k, q] + Σ_k h[5000t+p, k]·Wr[k, q]) + b[0, q], 0):  the
  layer's formula at row 5000t + p, the same expression tree entry by entry; nothing about finiteness is used. The 20 row
  blocks tile the 100000 rows, so the array after the last point is the formula at every index, whatever the operand
  arrays hold.
-/
import proofs.«122803_j17755394802084_1_alg».proof.Proof.KernelIdealFrameP
import proofs.«122803_j17755394802084_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The left operand of the block's product is read at the output's row (axis 0 is kept, not contracted). -/
theorem lhs_row (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- ... and at the contraction position on its feature axis. -/
theorem lhs_feat (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- The right operand is read at the contraction position on its feature axis ... -/
theorem rhs_feat (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- ... and at the output's column. -/
theorem rhs_col (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's product of a 5000x128 block with a 128x64 matrix into a zero accumulator, at row p and column q:
    the plain sum over the 128 contracted features. -/
theorem matmul_at (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_feat _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_feat _ _).trans hk
    | ⟨1, _⟩ => exact rhs_col _ _)
  rw [el, er]

/-- The body's value at row p, column q of the block: the two contractions over the 128 features added, plus the bias row
    at column q, then the maximum with the zero word. Every format change in between is the identity on the extended reals. -/
theorem pay_at (x0 x1 : Vec Ideal S5000x128 .f32) (x2 x3 : Vec Ideal S128x64 .f32) (x4 : Vec Ideal S1x64 .f32) (p : Fin 5000) (q : Fin 64) :
    k1_pay1 x0 x1 x2 x3 x4 (ix2 p q)
      = max (((∑ k : Fin 128, (x0 (ix2 p k) : EReal) * x2 (ix2 k q)) + (∑ k : Fin 128, (x1 (ix2 p k) : EReal) * x3 (ix2 k q))) + x4 (ix2 0 q))
          (Ideal.ofBits .f32 0x00000000#32) := by
  unfold k1_pay1
  simp only [shapeCast_self]
  rw [maximumf_apply, addf_apply, addf_apply, broadcast_apply, matmul_at, matmul_at, broadcastTo_1b_ab_apply]
  simp only [truncf_apply]
  rfl

/-- The zero offsets of every access of the body, as the constant function. -/
theorem hz : (![0, 0] : Fin 2 → Nat) = fun _ => 0 := funext fun a => by fin_cases a <;> rfl

/-- One grid point's block of the output against the whole-array formula. The two row-tiled operands' blocks hold rows
    r·5000 … r·5000+4999 of their arrays, the weight and bias blocks are their whole arrays; then the body's value at
    block coordinate j is the layer's formula at row r·5000 + j₀, column j₁: the same two sums over the 128 features,
    the same bias entry, the same maximum with zero, term by term. -/
theorem point_eq (A0 A1 : FVec Ideal S100000x128 .f32) (B2 B3 : FVec Ideal S128x64 .f32) (B4 : FVec Ideal S1x64 .f32)
    (x0 x1 : Vec Ideal S5000x128 .f32) (x2 x3 : Vec Ideal S128x64 .f32) (x4 : Vec Ideal S1x64 .f32) (r : Nat)
    (h0 : ∀ (y : S5000x128.Idx) (i : S100000x128.Idx), (i 0).val = r * 5000 + (y 0).val → (i 1).val = (y 1).val → x0 y = A0 i)
    (h1 : ∀ (y : S5000x128.Idx) (i : S100000x128.Idx), (i 0).val = r * 5000 + (y 0).val → (i 1).val = (y 1).val → x1 y = A1 i)
    (h2 : x2 = B2) (h3 : x3 = B3) (h4 : x4 = B4)
    (j : S5000x64.Idx) (i : S100000x64.Idx) (hi0 : (i 0).val = r * 5000 + (j 0).val) (hi1 : (i 1).val = (j 1).val) :
    k1_pay1 x0 x1 x2 x3 x4 j = Cert.Layers.sage128 A0 A1 B2 B3 B4 i := by
  obtain ⟨p, q, rfl⟩ : ∃ (p : Fin 5000) (q : Fin 64), j = ix2 p q := ⟨j 0, j 1, eq_ix2 j⟩
  rw [pay_at]
  subst h2 h3 h4
  unfold Cert.Layers.sage128
  have eq : (⟨(i 1).val, (i 1).isLt⟩ : Fin 64) = q := Fin.ext hi1
  rw [eq]
  have e0 : ∀ k : Fin 128, (x0 (ix2 p k) : EReal) = A0 (ix2 (n0 := 100000) (n1 := 128) ⟨(i 0).val, (i 0).isLt⟩ k) :=
    fun k => h0 (ix2 p k) _ hi0 rfl
  have e1 : ∀ k : Fin 128, (x1 (ix2 p k) : EReal) = A1 (ix2 (n0 := 100000) (n1 := 128) ⟨(i 0).val, (i 0).isLt⟩ k) :=
    fun k => h1 (ix2 p k) _ hi0 rfl
  simp only [e0, e1]

/-- The printed index maps over the 20 grid points: the two row-tiled operands and the output sit at block row t, block
    column 0; the two weight matrices and the bias row are one block each, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Array
variable (V : (c : Dev nD) → (b : Ref sig .tc) → Buf (Elt Ideal) ((c : Thread nD τ).loc b))

/-- What grid point t writes back to the output array is block t of the layer's whole-array formula of the five operand
    arrays as the region finds them. -/
theorem flushed_eq (c : Dev nD) (t : Fin cfg1.N) :
    (GenP.dat1 (F := Ideal) V c).flushed 5 t = ((cfg1.win 5).blk t).view.read (Elt Ideal)
      (Cert.Layers.sage128 (V c main_v43) (V c main_v25) (V c main_v44) (V c main_v45) (V c main_v46)) := by
  show (cfg1.win 5).cut (grid1.coords t) ((GenP.dat1 V c).after 5 t) = _
  rw [GenP.after1_5]
  unfold GenP.out1_5
  rw [View.canon_unit_zero hz]
  simp only [View.ld_unit_zero (S := S5000x128) hz, View.ld_unit_zero (S := S128x64) hz, View.ld_unit_zero (S := S1x64) hz]
  obtain ⟨a0, a1, b0, b1, c0, c1, d0, d1, e0, e1, f0, f1⟩ := idx_facts t
  funext j
  show k1_pay1 (GenP.iblk1 V c 0 t) (GenP.iblk1 V c 1 t) (GenP.iblk1 V c 2 t) (GenP.iblk1 V c 3 t) (GenP.iblk1 V c 4 t) j
    = Cert.Layers.sage128 (V c main_v43) (V c main_v25) (V c main_v44) (V c main_v45) (V c main_v46) (((cfg1.win 5).blk t).view.emb j)
  refine point_eq _ _ _ _ _ _ _ _ _ _ t.val ?_ ?_ ?_ ?_ ?_ j _ ?_ ?_
  · intro y i hi0 hi1
    show V c main_v43 (((cfg1.win 0).blk t).view.emb y) = V c main_v43 i
    refine congrArg _ (funext fun a => Fin.ext ?_)
    match a with
    | ⟨0, _⟩ => show win1_0.index t (0 : Fin 2) * 5000 + 1 * (y 0).val = (i 0).val; rw [a0, hi0]; omega
    | ⟨1, _⟩ => show win1_0.index t (1 : Fin 2) * 128 + 1 * (y 1).val = (i 1).val; rw [a1, hi1]; omega
  · intro y i hi0 hi1
    show V c main_v25 (((cfg1.win 1).blk t).view.emb y) = V c main_v25 i
    refine congrArg _ (funext fun a => Fin.ext ?_)
    match a with
    | ⟨0, _⟩ => show win1_1.index t (0 : Fin 2) * 5000 + 1 * (y 0).val = (i 0).val; rw [b0, hi0]; omega
    | ⟨1, _⟩ => show win1_1.index t (1 : Fin 2) * 128 + 1 * (y 1).val = (i 1).val; rw [b1, hi1]; omega
  · funext y
    show V c main_v44 (((cfg1.win 2).blk t).view.emb y) = V c main_v44 y
    refine congrArg _ (funext fun a => Fin.ext ?_)
    match a with
    | ⟨0, _⟩ => show win1_2.index t (0 : Fin 2) * 128 + 1 * (y 0).val = (y 0).val; rw [c0]; omega
    | ⟨1, _⟩ => show win1_2.index t (1 : Fin 2) * 64 + 1 * (y 1).val = (y 1).val; rw [c1]; omega
  · funext y
    show V c main_v45 (((cfg1.win 3).blk t).view.emb y) = V c main_v45 y
    refine congrArg _ (funext fun a => Fin.ext ?_)
    match a with
    | ⟨0, _⟩ => show win1_3.index t (0 : Fin 2) * 128 + 1 * (y 0).val = (y 0).val; rw [d0]; omega
    | ⟨1, _⟩ => show win1_3.index t (1 : Fin 2) * 64 + 1 * (y 1).val = (y 1).val; rw [d1]; omega
  · funext y
    show V c main_v46 (((cfg1.win 4).blk t).view.emb y) = V c main_v46 y
    refine congrArg _ (funext fun a => Fin.ext ?_)
    match a with
    | ⟨0, _⟩ => show win1_4.index t (0 : Fin 2) * 1 + 1 * (y 0).val = (y 0).val; rw [e0]; omega
    | ⟨1, _⟩ => show win1_4.index t (1 : Fin 2) * 64 + 1 * (y 1).val = (y 1).val; rw [e1]; omega
  · show win1_5.index t (0 : Fin 2) * 5000 + 1 * (j 0).val = t.val * 5000 + (j 0).val; rw [f0]; omega
  · show win1_5.index t (1 : Fin 2) * 64 + 1 * (j 1).val = (j 1).val; rw [f1]; omega

end Array

/-- An index of the output array lies in point t's block iff, on each axis, its coordinate is in the block's range. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47).slice (win1_5.rect t)).set ↔ _
  rw [View.set_slice_whole, Rect.mem_set_unit]
  exact Iff.rfl

/-- The 20 blocks of 5000 rows tile the 100000 rows: row r lies in the block of point r / 5000, and every column in the
    one block column. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < cfg1.N := by show (i 0).val / 5000 < grid1.N; rw [GenP.N_1]; omega
  obtain ⟨-, -, -, -, -, -, -, -, -, -, f0, f1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [f1]; omega

section Array
variable (V : (c : Dev nD) → (b : Ref sig .tc) → Buf (Elt Ideal) ((c : Thread nD τ).loc b))

/-- The output array after the region's 20 points: the layer's formula of the five operand arrays, at every index. -/
theorem array_eq (c : Dev nD) :
    (GenP.dat1 (F := Ideal) V c).arrAt 5 cfg1.N
      = Cert.Layers.sage128 (V c main_v43) (V c main_v25) (V c main_v44) (V c main_v45) (V c main_v46) :=
  (GenP.dat1 (F := Ideal) V c).arrAt_eq_of_cover 5 _ (fun t _ => flushed_eq V c t) cover

end Array

end Cert.KernelIdeal.Region1

end
-- ==== Proof.Region2Payload.lean ====
/-
  The last region's body, read at one entry of its result block.

  The body loads a block of 5000 rows of hidden features (5000 × 64), the head's weights (64 × 2) and the bias row (1 × 2).
  It forms the logits  l[p,q] = Σ_k x0[p,k]·x1[k,q] + x2[0,q],  the row maximum  M[p] = max(−∞, l[p,0], l[p,1]),  the
  shifted logits  l[p,q] − M[p],  and stores  (l[p,q] − M[p]) − log Σ_q' exp(l[p,q'] − M[p]).  Over the extended reals
  every change of format is the identity and the matrix product into the zero accumulator is the plain sum over the
  contracted axis, so the stored block is that expression entry by entry (`out2_3_apply`).
-/
import proofs.«122803_j17755394802084_1_alg».proof.Proof.KernelIdealFrameP
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.ValueIdx

/-- The zero offsets of a whole-block access. -/
theorem hz : (![0, 0] : Fin 2 → Nat) = fun _ => 0 := funext fun a => by fin_cases a <;> rfl

/-- One row's logit for one class, from the three blocks the body loads. -/
def blkLogit (x0 : Vec Ideal S5000x64 .f32) (x1 : Vec Ideal S64x2 .f32) (x2 : Vec Ideal S1x2 .f32) (p : Fin 5000) (q : Fin 2) : EReal :=
  (∑ k : Fin 64, x0 (ix2 (n0 := 5000) (n1 := 64) p k) * x1 (ix2 (n0 := 64) (n1 := 2) k q)) + x2 (ix2 (n0 := 1) (n1 := 2) 0 q)

/-- The block of logits as the body forms it. -/
def kLogits (x0 : Vec Ideal S5000x64 .f32) (x1 : Vec Ideal S64x2 .f32) (x2 : Vec Ideal S1x2 .f32) : FVec Ideal S5000x2 .f32 :=
  addf (matmul dot_S5000x64_S64x2_S5000x2_1_0_0_1_n_n none
      (truncf .bf16 (shapeCast S5000x64 x0 shapeCasts_S5000x64_S5000x64) bitsLt_bf16_f32)
      (truncf .bf16 (shapeCast S64x2 x1 shapeCasts_S64x2_S64x2) bitsLt_bf16_f32)
      (constant (F := Ideal) S5000x2 .f32 0x00000000#32))
    (broadcastTo S5000x2 (shapeCast S1x2 x2 shapeCasts_S1x2_S1x2) broadcasts_S1x2_S5000x2)

/-- The row maximum of a 5000 × 2 block from −∞, kept as a column and spread back over the two classes. -/
def kRowMax (v : FVec Ideal S5000x2 .f32) : FVec Ideal S5000x2 .f32 :=
  broadcastTo S5000x2 (shapeCast S5000x1 (multiReduction (F := Ideal) .maximumf [1] S5000 v 0xFF800000#32 reduces_S5000x2_S5000 (.inl rfl) rfl) shapeCasts_S5000_S5000x1) broadcasts_S5000x1_S5000x2

/-- The logarithm of each row's sum of exponentials, kept as a column and spread back over the two classes. -/
def kLogSum (v : FVec Ideal S5000x2 .f32) : FVec Ideal S5000x2 .f32 :=
  broadcastTo S5000x2 (log (shapeCast S5000x1 (multiReduction (F := Ideal) .add [1] S5000 (exp v) 0x00000000#32 reduces_S5000x2_S5000 (.inl rfl) rfl) shapeCasts_S5000_S5000x1)) broadcasts_S5000x1_S5000x2

/-- The body's stored value is the shifted logits minus the logarithm of their rows' sums of exponentials. -/
theorem k2_pay1_eq (x0 : Vec Ideal S5000x64 .f32) (x1 : Vec Ideal S64x2 .f32) (x2 : Vec Ideal S1x2 .f32) :
    k2_pay1 (F := Ideal) x0 x1 x2
      = subf (subf (kLogits x0 x1 x2) (kRowMax (kLogits x0 x1 x2))) (kLogSum (subf (kLogits x0 x1 x2) (kRowMax (kLogits x0 x1 x2)))) := rfl

/-! ### The contraction's operand indices -/

theorem lhs_0 (i : S5000x2.Idx) (r : dot_S5000x64_S64x2_S5000x2_1_0_0_1_n_n.contr.Idx) :
    (dot_S5000x64_S64x2_S5000x2_1_0_0_1_n_n.lhsIdx i r 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_1 (i : S5000x2.Idx) (r : dot_S5000x64_S64x2_S5000x2_1_0_0_1_n_n.contr.Idx) :
    (dot_S5000x64_S64x2_S5000x2_1_0_0_1_n_n.lhsIdx i r 1).val = (r ⟨0, by decide⟩).val :=
  dot_S5000x64_S64x2_S5000x2_1_0_0_1_n_n.lhsIdx_val_of_single rfl i r
theorem rhs_0 (i : S5000x2.Idx) (r : dot_S5000x64_S64x2_S5000x2_1_0_0_1_n_n.contr.Idx) :
    (dot_S5000x64_S64x2_S5000x2_1_0_0_1_n_n.rhsIdx i r 0).val = (r ⟨0, by decide⟩).val :=
  dot_S5000x64_S64x2_S5000x2_1_0_0_1_n_n.rhsIdx_val_of_single rfl i r
theorem rhs_1 (i : S5000x2.Idx) (r : dot_S5000x64_S64x2_S5000x2_1_0_0_1_n_n.contr.Idx) :
    (dot_S5000x64_S64x2_S5000x2_1_0_0_1_n_n.rhsIdx i r 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The matrix product into the zero accumulator at row `p`, class `q`: the sum over the 64 hidden features. -/
theorem matmul_at (y0 : FVec Ideal S5000x64 .bf16) (y1 : FVec Ideal S64x2 .bf16) (p : Fin 5000) (q : Fin 2) :
    matmul dot_S5000x64_S64x2_S5000x2_1_0_0_1_n_n none y0 y1 (constant (F := Ideal) S5000x2 .f32 0x00000000#32) (ix2 (n0 := 5000) (n1 := 2) p q)
      = ∑ k : Fin 64, y0 (ix2 (n0 := 5000) (n1 := 64) p k) * y1 (ix2 (n0 := 64) (n1 := 2) k q) := by
  simp only [matmul]
  rw [Ideal.matmul_constant_zero_apply, ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 (n0 := 5000) (n1 := 2) p q) ((contrEquiv1 dot_S5000x64_S64x2_S5000x2_1_0_0_1_n_n 64 rfl rfl).symm k) = ix2 (n0 := 5000) (n1 := 64) p k := funext fun a => Fin.ext (by
    match a with
    | ⟨0, _⟩ => exact lhs_0 _ _
    | ⟨1, _⟩ => exact (lhs_1 _ _).trans hk)
  have er : dot_S5000x64_S64x2_S5000x2_1_0_0_1_n_n.rhsIdx (ix2 (n0 := 5000) (n1 := 2) p q) ((contrEquiv1 dot_S5000x64_S64x2_S5000x2_1_0_0_1_n_n 64 rfl rfl).symm k) = ix2 (n0 := 64) (n1 := 2) k q := funext fun a => Fin.ext (by
    match a with
    | ⟨0, _⟩ => exact (rhs_0 _ _).trans hk
    | ⟨1, _⟩ => exact rhs_1 _ _)
  rw [el, er]

/-- The bias row spread over the 5000 rows reads its class's entry. -/
theorem biasRow_at (x2 : Vec Ideal S1x2 .f32) (p : Fin 5000) (q : Fin 2) :
    broadcastTo S5000x2 x2 broadcasts_S1x2_S5000x2 (ix2 (n0 := 5000) (n1 := 2) p q) = x2 (ix2 (n0 := 1) (n1 := 2) 0 q) :=
  broadcastTo_apply x2 broadcasts_S1x2_S5000x2 (ix2 (n0 := 5000) (n1 := 2) p q) (ix2 (n0 := 1) (n1 := 2) 0 q) (fun a => match a with
    | ⟨0, _⟩ => by show (0 : Nat) = if (1 : Nat) = 1 then 0 else _; rw [if_pos rfl]
    | ⟨1, _⟩ => by show q.val = if (2 : Nat) = 1 then 0 else q.val; rw [if_neg (by decide)])

/-- The block of logits at row `p`, class `q`. -/
theorem kLogits_apply (x0 : Vec Ideal S5000x64 .f32) (x1 : Vec Ideal S64x2 .f32) (x2 : Vec Ideal S1x2 .f32) (p : Fin 5000) (q : Fin 2) :
    kLogits x0 x1 x2 (ix2 (n0 := 5000) (n1 := 2) p q) = blkLogit x0 x1 x2 p q := by
  unfold kLogits blkLogit
  rw [shapeCast_self, shapeCast_self, shapeCast_self, addf_apply, matmul_at, biasRow_at]
  rfl

/-! ### Per-row values: kept as a column, spread over the two classes, reduced along the classes -/

/-- A column spread over the two classes reads the row's entry of the column. -/
theorem spread_at {α : Type} (w : S5000x1.Idx → α) (p : Fin 5000) (q : Fin 2) :
    broadcastTo S5000x2 w broadcasts_S5000x1_S5000x2 (ix2 (n0 := 5000) (n1 := 2) p q) = w (ix2 (n0 := 5000) (n1 := 1) p 0) :=
  broadcastTo_apply w broadcasts_S5000x1_S5000x2 (ix2 (n0 := 5000) (n1 := 2) p q) (ix2 (n0 := 5000) (n1 := 1) p 0) (fun a => match a with
    | ⟨0, _⟩ => by show p.val = if (5000 : Nat) = 1 then 0 else p.val; rw [if_neg (by decide)]
    | ⟨1, _⟩ => by show (0 : Nat) = if (1 : Nat) = 1 then 0 else _; rw [if_pos rfl])

/-- A per-row vector viewed as a column reads the row's value. -/
theorem keep_at {α : Type} (v : S5000.Idx → α) (p : Fin 5000) :
    shapeCast S5000x1 v shapeCasts_S5000_S5000x1 (ix2 (n0 := 5000) (n1 := 1) p 0) = v (ix1 p) :=
  shapeCast_apply v shapeCasts_S5000_S5000x1 _ (ix1 p) (by
    rw [Shape.rowMajor_val_one, Shape.rowMajor_val_two]
    show p.val = p.val * 1 + 0
    omega)

/-- The index of row `p` with class `k` put back on the reduced axis. -/
theorem lift_at (p : Fin 5000) (k : Fin 2) :
    reduces_S5000x2_S5000.lift (ix1 p) k = ix2 (n0 := 5000) (n1 := 2) p k :=
  funext fun c => Fin.ext (by match c with | ⟨0, _⟩ => rfl | ⟨1, _⟩ => rfl)

/-- The row maximum, spread back over the two classes: the fold of `max` from −∞ over the row's two entries. -/
theorem kRowMax_apply (v : FVec Ideal S5000x2 .f32) (p : Fin 5000) (q : Fin 2) :
    kRowMax v (ix2 (n0 := 5000) (n1 := 2) p q)
      = (Finset.univ : Finset (Fin 2)).fold max (Ideal.ofBits .f32 0xFF800000#32) (fun q' => v (ix2 (n0 := 5000) (n1 := 2) p q')) := by
  unfold kRowMax
  rw [spread_at, keep_at]
  refine (Ideal.multiReduction_maximumf_single v 0xFF800000#32 reduces_S5000x2_S5000 _ _ (ix1 p)).trans ?_
  show (Finset.univ : Finset (Fin 2)).fold max (Ideal.ofBits .f32 0xFF800000#32) (v ∘ reduces_S5000x2_S5000.lift (ix1 p)) = _
  congr 1
  funext k
  exact congrArg v (lift_at p k)

/-- The logarithm of the row's sum of exponentials, spread back over the two classes. -/
theorem kLogSum_apply (v : FVec Ideal S5000x2 .f32) (p : Fin 5000) (q : Fin 2) :
    kLogSum v (ix2 (n0 := 5000) (n1 := 2) p q) = Ideal.log (∑ q' : Fin 2, Ideal.exp (v (ix2 (n0 := 5000) (n1 := 2) p q'))) := by
  unfold kLogSum
  rw [spread_at]
  show Ideal.log (shapeCast S5000x1 (multiReduction (F := Ideal) .add [1] S5000 (exp v) 0x00000000#32 reduces_S5000x2_S5000 _ _) shapeCasts_S5000_S5000x1 (ix2 (n0 := 5000) (n1 := 1) p 0)) = _
  rw [keep_at]
  refine congrArg Ideal.log ?_
  refine (Ideal.multiReduction_add_single (exp v) 0x00000000#32 reduces_S5000x2_S5000 _ _ (ix1 p)).trans ?_
  show ∑ k : Fin 2, exp v (reduces_S5000x2_S5000.lift (ix1 p) k) = _
  refine Finset.sum_congr rfl fun k _ => ?_
  rw [lift_at]
  rfl

/-- The row maximum of the block's logits. -/
def blkMax (x0 : Vec Ideal S5000x64 .f32) (x1 : Vec Ideal S64x2 .f32) (x2 : Vec Ideal S1x2 .f32) (p : Fin 5000) : EReal :=
  (Finset.univ : Finset (Fin 2)).fold max (Ideal.ofBits .f32 0xFF800000#32) (fun q => blkLogit x0 x1 x2 p q)

/-- THE BODY'S RESULT at row `p`, class `q` of its block: the shifted logit minus the logarithm of the row's sum of
    exponentials of shifted logits. -/
theorem out2_3_apply (x0 : Vec Ideal S5000x64 .f32) (x1 : Vec Ideal S64x2 .f32) (x2 : Vec Ideal S1x2 .f32) (p : Fin 5000) (q : Fin 2) :
    GenP.out2_3 (F := Ideal) x0 x1 x2 (ix2 (n0 := 5000) (n1 := 2) p q)
      = (blkLogit x0 x1 x2 p q - blkMax x0 x1 x2 p)
        - Ideal.log (∑ q' : Fin 2, Ideal.exp (blkLogit x0 x1 x2 p q' - blkMax x0 x1 x2 p)) := by
  unfold GenP.out2_3
  rw [View.canon_unit_zero hz]
  simp only [View.ld_unit_zero (S := S5000x64) hz, View.ld_unit_zero (S := S64x2) hz, View.ld_unit_zero (S := S1x2) hz]
  rw [k2_pay1_eq, subf_apply, subf_apply, kLogSum_apply, kRowMax_apply]
  simp only [subf_apply, kRowMax_apply, kLogits_apply]
  rfl

end Cert.KernelIdeal.Region2

end
-- ==== Proof.Region2.lean ====
/-
  The last region's output array after its run.

  The region runs its body at 20 points; point `t` reads rows `5000 t … 5000 t + 4999` of the hidden features, the whole
  weights and the whole bias row, and writes rows `5000 t … 5000 t + 4999` of the output.  The body's result at a row
  depends on that row of the hidden features only (and on the weights and the bias), so each written block is the
  corresponding block of ONE function of the arrays — the log-softmax head of the specification — and the 20 blocks
  cover the output: row `r` lies in the block of point `r / 5000`.  Hence the output array is that function
  (`array_eq`), whatever the arrays hold on entry.
-/
import proofs.«122803_j17755394802084_1_alg».proof.Proof.Region2Payload
import proofs.«122803_j17755394802084_1_alg».proof.Proof.Spec

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block indices at each of the 20 points: the hidden features and the output move one row block per point, the
    weights and the bias stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point `t`'s block of hidden features is rows `5000 t … 5000 t + 4999` of the array. -/
theorem blk0_apply (c : Dev nD) (t : Fin cfg2.N) (p : Fin 5000) (k : Fin 64) (P : Fin 100000) (hP : P.val = t.val * 5000 + p.val) :
    (GenP.iblk2 V c 0 t : Vec Ideal S5000x64 .f32) (ix2 (n0 := 5000) (n1 := 64) p k)
      = (V c main_v47 : S100000x64.Idx → EReal) (ix2 (n0 := 100000) (n1 := 64) P k) := by
  obtain ⟨e0, e1, -⟩ := idx_facts t
  unfold GenP.iblk2
  rw [View.read_apply]
  show V c main_v47 _ = V c main_v47 _
  congr 1
  funext a
  apply Fin.ext
  match a with
  | ⟨0, _⟩ => show win2_0.index t (0 : Fin 2) * 5000 + 1 * p.val = P.val; rw [e0, hP]; omega
  | ⟨1, _⟩ => show win2_0.index t (1 : Fin 2) * 64 + 1 * k.val = k.val; rw [e1]; omega

/-- Every point's block of the head's weights is the whole 64 × 2 array. -/
theorem blk1_eq (c : Dev nD) (t : Fin cfg2.N) :
    (GenP.iblk2 V c 1 t : Vec Ideal S64x2 .f32) = (V c main_v48 : S64x2.Idx → EReal) := by
  obtain ⟨-, -, e0, e1, -⟩ := idx_facts t
  funext y
  unfold GenP.iblk2
  rw [View.read_apply]
  show V c main_v48 _ = V c main_v48 y
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 2 + 1 * (y 1).val = (y 1).val; rw [e1]; omega

/-- Every point's block of the bias is the whole 1 × 2 row. -/
theorem blk2_eq (c : Dev nD) (t : Fin cfg2.N) :
    (GenP.iblk2 V c 2 t : Vec Ideal S1x2 .f32) = (V c main_v49 : S1x2.Idx → EReal) := by
  obtain ⟨-, -, -, -, e0, e1, -⟩ := idx_facts t
  funext y
  unfold GenP.iblk2
  rw [View.read_apply]
  show V c main_v49 _ = V c main_v49 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 2 + 1 * (y 1).val = (y 1).val; rw [e1]; omega

/-- The body's result on a block whose rows are rows `P₀ …` of the hidden features, with the whole weights and bias, is the
    log-softmax head at those rows. -/
theorem point_eq (x0 : Vec Ideal S5000x64 .f32) (H : FVec Ideal ⟨2, ![100000, 64]⟩ .f32) (W : FVec Ideal ⟨2, ![64, 2]⟩ .f32)
    (B : FVec Ideal ⟨2, ![1, 2]⟩ .f32) (p : Fin 5000) (q : Fin 2) (P : Fin 100000)
    (h0 : ∀ k : Fin 64, x0 (ix2 (n0 := 5000) (n1 := 64) p k) = H (ix2 (n0 := 100000) (n1 := 64) P k)) :
    GenP.out2_3 (F := Ideal) x0 W B (ix2 (n0 := 5000) (n1 := 2) p q)
      = Cert.Layers.logSoftmax2 H W B (ix2 (n0 := 100000) (n1 := 2) P q) := by
  rw [out2_3_apply]
  unfold Cert.Layers.logSoftmax2 Cert.Layers.shifted Cert.Layers.rowMax Cert.Layers.logit blkMax blkLogit
  simp only [h0]

/-- WHAT POINT `t` WRITES BACK is block `t` of the log-softmax head of the arrays as the region finds them. -/
theorem flushed_eq (c : Dev nD) (t : Fin cfg2.N) :
    (GenP.dat2 (F := Ideal) V c).flushed 3 t
      = ((cfg2.win 3).blk t).view.read (Elt Ideal) (Cert.Layers.logSoftmax2 (V c main_v47) (V c main_v48) (V c main_v49)) := by
  have hN : t.val < 20 := lt_of_lt_of_eq t.isLt GenP.N_2
  obtain ⟨-, -, -, -, -, -, e6, e7⟩ := idx_facts t
  show (cfg2.win 3).cut (grid2.coords t) ((GenP.dat2 V c).after 3 t) = _
  rw [GenP.after2_3]
  funext j
  have hj0 : (j 0).val < 5000 := (j 0).isLt
  have hj1 : (j 1).val < 2 := (j 1).isLt
  have e : (cfg2.win 3).xinj (grid2.coords t) j = ix2 (n0 := 5000) (n1 := 2) ⟨(j 0).val, hj0⟩ ⟨(j 1).val, hj1⟩ :=
    funext fun a => by match a with | ⟨0, _⟩ => rfl | ⟨1, _⟩ => rfl
  show GenP.out2_3 (F := Ideal) _ _ _ ((cfg2.win 3).xinj (grid2.coords t) j) = _
  rw [e]
  show GenP.out2_3 (F := Ideal) _ _ _ _ = Cert.Layers.logSoftmax2 (V c main_v47) (V c main_v48) (V c main_v49) (((cfg2.win 3).blk t).view.emb j)
  rw [blk1_eq V c t, blk2_eq V c t]
  refine (point_eq (GenP.iblk2 V c 0 t) (V c main_v47) (V c main_v48) (V c main_v49) ⟨(j 0).val, hj0⟩ ⟨(j 1).val, hj1⟩
    ⟨t.val * 5000 + (j 0).val, by omega⟩ (fun k => blk0_apply V c t _ k _ rfl)).trans ?_
  refine congrArg (Cert.Layers.logSoftmax2 _ _ _) (funext fun a => Fin.ext ?_)
  match a with
  | ⟨0, _⟩ => show t.val * 5000 + (j 0).val = win2_3.index t (0 : Fin 2) * 5000 + 1 * (j 0).val; rw [e6]; omega
  | ⟨1, _⟩ => show (j 1).val = win2_3.index t (1 : Fin 2) * 2 + 1 * (j 1).val; rw [e7]; omega

/-- An index of the output array is in point `t`'s block iff each coordinate is in the block's range on its axis. -/
theorem mem_blk (t : Fin cfg2.N) (i : S100000x2.Idx) :
    i ∈ ((cfg2.win 3).blk t).view.set
      ↔ ∀ a : Fin 2, win2_3.index t a * S5000x2.size a ≤ (i a).val ∧ (i a).val < win2_3.index t a * S5000x2.size a + S5000x2.size a := by
  show i ∈ ((View.whole main_v50).slice (win2_3.rect t)).set ↔ _
  rw [View.set_slice_whole, Rect.mem_set_unit]
  exact Iff.rfl

/-- Row `r` of the output is in the block of point `r / 5000`, and every point writes its block back. -/
theorem cover (i : S100000x2.Idx) :
    ∃ t : Fin cfg2.N, (cfg2.win 3).flush t = true ∧ i ∈ ((cfg2.win 3).blk t).view.set := by
  have hi0 : (i 0).val < 100000 := idx2_lt0 i
  have hi1 : (i 1).val < 2 := idx2_lt1 i
  have hN : cfg2.N = 20 := GenP.N_2
  let t : Fin cfg2.N := ⟨(i 0).val / 5000, by rw [hN]; omega⟩
  obtain ⟨-, -, -, -, -, -, e6, e7⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 2 ≤ (i 1).val ∧ (i 1).val < win2_3.index t (1 : Fin 2) * 2 + 2; rw [e7]; omega

/-- THE OUTPUT ARRAY after the region's run: the log-softmax head of the hidden features, the weights and the bias as the
    region finds them, whatever they are. -/
theorem array_eq (c : Dev nD) :
    (GenP.dat2 (F := Ideal) V c).arrAt 3 cfg2.N = Cert.Layers.logSoftmax2 (V c main_v47) (V c main_v48) (V c main_v49) :=
  (GenP.dat2 (F := Ideal) V c).arrAt_eq_of_cover 3 (Cert.Layers.logSoftmax2 (V c main_v47) (V c main_v48) (V c main_v49))
    (fun t _ => flushed_eq V c t) cover

end Cert.KernelIdeal.Region2

end
-- ==== Proof.RefLayers.lean ====
/-
  The reference's three dense stages are the specification's functions of the stages before them.

  Layer 1: entry (p, q) of the reference's output is  max( (A + B) + bias, 0 )  where  A  is the contraction of the
  neighbour mean's row p with column q of the transposed left weight,  B  the same for the features and the
  transposed right weight, and  bias  the row-broadcast of the 1x128 bias at column q.  Layer 2 is the same formula
  from 128 hidden features to 64, on the neighbour mean of layer 1's output and on layer 1's output.  In both, each
  of the reference's index maps sends (p, q) and the contracted position k to the pair of coordinates the
  specification writes, so the two sides are the same expression entry by entry.

  Head: the logit of node p for class q is the contraction of layer 2's output, row p, with column q of the
  transposed weight, plus the row-broadcast bias.  The reference takes the row maximum as a reduce of the two classes
  from −∞ and then once more the maximum of −∞ and that; the second maximum changes nothing because a fold of  max
  that starts at −∞ is at least −∞.  It subtracts the maximum, exponentiates, sums the two classes from zero, takes
  the logarithm and subtracts again: entry (p, q) is  (l[p,q] − M[p]) − log Σ_q' exp(l[p,q'] − M[p]).
-/
import proofs.«122803_j17755394802084_1_alg».proof.Proof.ReferenceIdealReadP
import proofs.«122803_j17755394802084_1_alg».proof.Proof.Spec

noncomputable section

namespace Cert.ReferenceIdeal.Layers

open Cert.ReferenceIdeal Cert.ReferenceIdeal.Gen Idealize.ShloMosaic Idealize.ShloMosaic.StableHlo
  Idealize.ShloMosaic.ValueIdx

/-! ## Layer 1 -/

/-- The left operand of either layer-1 contraction is read at (p, k). -/
theorem lidx23_eq (i : S100000x128.Idx) (k : Fin 182) :
    ReadP.lidx_main_v23 i k = ix2 (n0 := 100000) (n1 := 182) ⟨(i 0).val, (i 0).isLt⟩ k :=
  funext fun a => Fin.ext (by match a with | ⟨0, _⟩ => rfl | ⟨1, _⟩ => rfl)

/-- The right operand of either layer-1 contraction is read at (k, q). -/
theorem ridx23_eq (i : S100000x128.Idx) (k : Fin 182) :
    ReadP.ridx_main_v23 i k = ix2 (n0 := 182) (n1 := 128) k ⟨(i 1).val, (i 1).isLt⟩ :=
  funext fun a => Fin.ext (by match a with | ⟨0, _⟩ => rfl | ⟨1, _⟩ => rfl)

theorem lidx25_eq (i : S100000x128.Idx) (k : Fin 182) :
    ReadP.lidx_main_v25 i k = ix2 (n0 := 100000) (n1 := 182) ⟨(i 0).val, (i 0).isLt⟩ k :=
  funext fun a => Fin.ext (by match a with | ⟨0, _⟩ => rfl | ⟨1, _⟩ => rfl)

theorem ridx25_eq (i : S100000x128.Idx) (k : Fin 182) :
    ReadP.ridx_main_v25 i k = ix2 (n0 := 182) (n1 := 128) k ⟨(i 1).val, (i 1).isLt⟩ :=
  funext fun a => Fin.ext (by match a with | ⟨0, _⟩ => rfl | ⟨1, _⟩ => rfl)

/-- The row-broadcast bias is read at (0, q). -/
theorem idx28_eq (i : S100000x128.Idx) :
    ReadP.idx_main_v28 i = ix2 (n0 := 1) (n1 := 128) 0 ⟨(i 1).val, (i 1).isLt⟩ :=
  funext fun a => Fin.ext (by match a with | ⟨0, _⟩ => rfl | ⟨1, _⟩ => rfl)

/-- Layer 1 of the reference is the specification's layer-1 function of the neighbour mean, the features, the two
    transposed weights and the 1x128 bias. -/
theorem layer1_eq (x0 : (⟨S100000x182, .f32⟩ : BufTy).Contents (Elt Ideal))
    (x1 : (⟨S2x800000, .i32⟩ : BufTy).Contents (Elt Ideal))
    (x2 x3 : (⟨S128x182, .f32⟩ : BufTy).Contents (Elt Ideal))
    (x4 : (⟨S128, .f32⟩ : BufTy).Contents (Elt Ideal)) :
    ReadP.val_main_v30 (F := Ideal) x0 x1 x2 x3 x4
      = Cert.Layers.sage182 (ReadP.val_main_v21 (F := Ideal) x0 x1) x0 (ReadP.val_main_v22 (F := Ideal) x2)
          (ReadP.val_main_v24 (F := Ideal) x3) (ReadP.val_main_v27 (F := Ideal) x4) := by
  funext i
  rw [ReadP.val_main_v30_apply, ReadP.val_main_v29_apply, ReadP.val_main_v26_apply, ReadP.val_main_v23_apply,
    ReadP.val_main_v25_apply, ReadP.val_main_v28_apply, ReadP.val_main_call0_v0_apply,
    ReadP.val_main_call0_cst_apply]
  generalize ReadP.val_main_v21 (F := Ideal) x0 x1 = mean
  generalize ReadP.val_main_v22 (F := Ideal) x2 = wl
  generalize ReadP.val_main_v24 (F := Ideal) x3 = wr
  generalize ReadP.val_main_v27 (F := Ideal) x4 = b
  simp only [lidx23_eq, ridx23_eq, lidx25_eq, ridx25_eq, idx28_eq, Ideal.maximumf_def, Ideal.addf_def,
    Ideal.ofBits_def]
  rfl

/-! ## Layer 2 -/

/-- The left operand of either layer-2 contraction is read at (p, k). -/
theorem lidx50_eq (i : S100000x64.Idx) (k : Fin 128) :
    ReadP.lidx_main_v50 i k = ix2 (n0 := 100000) (n1 := 128) ⟨(i 0).val, (i 0).isLt⟩ k :=
  funext fun a => Fin.ext (by match a with | ⟨0, _⟩ => rfl | ⟨1, _⟩ => rfl)

/-- The right operand of either layer-2 contraction is read at (k, q). -/
theorem ridx50_eq (i : S100000x64.Idx) (k : Fin 128) :
    ReadP.ridx_main_v50 i k = ix2 (n0 := 128) (n1 := 64) k ⟨(i 1).val, (i 1).isLt⟩ :=
  funext fun a => Fin.ext (by match a with | ⟨0, _⟩ => rfl | ⟨1, _⟩ => rfl)

theorem lidx52_eq (i : S100000x64.Idx) (k : Fin 128) :
    ReadP.lidx_main_v52 i k = ix2 (n0 := 100000) (n1 := 128) ⟨(i 0).val, (i 0).isLt⟩ k :=
  funext fun a => Fin.ext (by match a with | ⟨0, _⟩ => rfl | ⟨1, _⟩ => rfl)

theorem ridx52_eq (i : S100000x64.Idx) (k : Fin 128) :
    ReadP.ridx_main_v52 i k = ix2 (n0 := 128) (n1 := 64) k ⟨(i 1).val, (i 1).isLt⟩ :=
  funext fun a => Fin.ext (by match a with | ⟨0, _⟩ => rfl | ⟨1, _⟩ => rfl)

/-- The row-broadcast bias is read at (0, q). -/
theorem idx55_eq (i : S100000x64.Idx) :
    ReadP.idx_main_v55 i = ix2 (n0 := 1) (n1 := 64) 0 ⟨(i 1).val, (i 1).isLt⟩ :=
  funext fun a => Fin.ext (by match a with | ⟨0, _⟩ => rfl | ⟨1, _⟩ => rfl)

/-- Layer 2 of the reference is the specification's layer-2 function of the neighbour mean of layer 1's output, layer
    1's output, the two transposed weights and the 1x64 bias. -/
theorem layer2_eq (x0 : (⟨S100000x182, .f32⟩ : BufTy).Contents (Elt Ideal))
    (x1 : (⟨S2x800000, .i32⟩ : BufTy).Contents (Elt Ideal))
    (x2 x3 : (⟨S128x182, .f32⟩ : BufTy).Contents (Elt Ideal))
    (x4 : (⟨S128, .f32⟩ : BufTy).Contents (Elt Ideal))
    (x5 x6 : (⟨S64x128, .f32⟩ : BufTy).Contents (Elt Ideal))
    (x7 : (⟨S64, .f32⟩ : BufTy).Contents (Elt Ideal)) :
    ReadP.val_main_v57 (F := Ideal) x0 x1 x2 x3 x4 x5 x6 x7
      = Cert.Layers.sage128 (ReadP.val_main_v48 (F := Ideal) x0 x1 x2 x3 x4)
          (ReadP.val_main_v30 (F := Ideal) x0 x1 x2 x3 x4) (ReadP.val_main_v49 (F := Ideal) x5)
          (ReadP.val_main_v51 (F := Ideal) x6) (ReadP.val_main_v54 (F := Ideal) x7) := by
  funext i
  rw [ReadP.val_main_v57_apply, ReadP.val_main_v56_apply, ReadP.val_main_v53_apply, ReadP.val_main_v50_apply,
    ReadP.val_main_v52_apply, ReadP.val_main_v55_apply, ReadP.val_main_call1_v0_apply,
    ReadP.val_main_call1_cst_apply]
  generalize ReadP.val_main_v48 (F := Ideal) x0 x1 x2 x3 x4 = mean
  generalize ReadP.val_main_v30 (F := Ideal) x0 x1 x2 x3 x4 = h1
  generalize ReadP.val_main_v49 (F := Ideal) x5 = wl
  generalize ReadP.val_main_v51 (F := Ideal) x6 = wr
  generalize ReadP.val_main_v54 (F := Ideal) x7 = b
  simp only [lidx50_eq, ridx50_eq, lidx52_eq, ridx52_eq, idx55_eq, Ideal.maximumf_def, Ideal.addf_def,
    Ideal.ofBits_def]
  rfl

/-! ## The head: log-softmax of the two logits -/

/-- The row index `p` with class `k` put back on the dropped class axis is (p, k). -/
theorem lift_classes (h : S100000x2.Reduces [1] S100000) (p : Fin 100000) (k : Fin (S100000x2.size 1)) :
    h.lift (ix1 p) k = ix2 (n0 := 100000) (n1 := 2) p (⟨k.val, k.isLt⟩ : Fin 2) := by
  funext c; apply Fin.ext
  match c with
  | ⟨0, _⟩ => rfl
  | ⟨1, _⟩ => rfl

/-- The reduce with a maximum body over the class axis, from −∞, at row `p`, is the fold of `max` from −∞ over the
    two classes of that row. -/
theorem rowReduce_apply (L : FVec Ideal ⟨2, ![100000, 2]⟩ .f32) (p : Fin 100000) :
    Host.reduce FloatOps.maximumf L (ReadP.val_main_call2_cst (F := Ideal)) reducesTo_S100000x2_S100000_d1 h_S_
        (ix1 p)
      = (Finset.univ : Finset (Fin 2)).fold max (Ideal.ofBits .f32 0xFF800000#32)
          (fun q => L (ix2 (n0 := 100000) (n1 := 2) p q)) := by
  have h : S100000x2.Reduces [1] S100000 := by decide
  rw [Host.reduce_eq_fold_single FloatOps.maximumf L _ reducesTo_S100000x2_S100000_d1 h h_S_]
  have hf : (L ∘ h.lift (ix1 p)) = fun k : Fin 2 => L (ix2 (n0 := 100000) (n1 := 2) p k) :=
    funext fun k => congrArg L (lift_classes h p k)
  exact congrArg (fun f => Finset.fold max (Ideal.ofBits .f32 0xFF800000#32) f (Finset.univ : Finset (Fin 2))) hf

/-- The head's contraction reads its left operand at (p, k). -/
theorem lidx59_eq (p : Fin 100000) (q : Fin 2) (k : Fin 64) :
    ReadP.lidx_main_v59 (ix2 (n0 := 100000) (n1 := 2) p q) k = ix2 (n0 := 100000) (n1 := 64) p k :=
  funext fun a => Fin.ext (by match a with | ⟨0, _⟩ => rfl | ⟨1, _⟩ => rfl)

/-- The head's contraction reads its right operand at (k, q). -/
theorem ridx59_eq (p : Fin 100000) (q : Fin 2) (k : Fin 64) :
    ReadP.ridx_main_v59 (ix2 (n0 := 100000) (n1 := 2) p q) k = ix2 (n0 := 64) (n1 := 2) k q :=
  funext fun a => Fin.ext (by match a with | ⟨0, _⟩ => rfl | ⟨1, _⟩ => rfl)

/-- The row-broadcast 1x2 bias is read at (0, q). -/
theorem idx61_eq (p : Fin 100000) (q : Fin 2) :
    ReadP.idx_main_v61 (ix2 (n0 := 100000) (n1 := 2) p q) = ix2 (n0 := 1) (n1 := 2) 0 q :=
  funext fun a => Fin.ext (by match a with | ⟨0, _⟩ => rfl | ⟨1, _⟩ => rfl)

/-- The two broadcasts of the row maximum (to a column, then across the classes) read it at row p. -/
theorem idx34_eq (p : Fin 100000) (q : Fin 2) :
    ReadP.idx_main_call2_v3 (ReadP.idx_main_call2_v4 (ix2 (n0 := 100000) (n1 := 2) p q)) = ix1 p :=
  funext fun a => Fin.ext (by match a with | ⟨0, _⟩ => rfl)

/-- The k-th term of the row sum, seen through the two broadcasts of the sum, is the entry (p, k). -/
theorem idxSum_eq (p : Fin 100000) (q : Fin 2) (k : Fin 2) :
    ReadP.idx_main_call2_v7 (ReadP.idx_main_call2_v8 (ReadP.idx_main_call2_v10 (ix2 (n0 := 100000) (n1 := 2) p q))) k
      = ix2 (n0 := 100000) (n1 := 2) p k :=
  funext fun a => Fin.ext (by match a with | ⟨0, _⟩ => rfl | ⟨1, _⟩ => rfl)

section Head

variable (x0 : (⟨S100000x182, .f32⟩ : BufTy).Contents (Elt Ideal))
  (x1 : (⟨S2x800000, .i32⟩ : BufTy).Contents (Elt Ideal))
  (x2 x3 : (⟨S128x182, .f32⟩ : BufTy).Contents (Elt Ideal))
  (x4 : (⟨S128, .f32⟩ : BufTy).Contents (Elt Ideal))
  (x5 x6 : (⟨S64x128, .f32⟩ : BufTy).Contents (Elt Ideal))
  (x7 : (⟨S64, .f32⟩ : BufTy).Contents (Elt Ideal))
  (x8 : (⟨S2x64, .f32⟩ : BufTy).Contents (Elt Ideal))
  (x9 : (⟨S2, .f32⟩ : BufTy).Contents (Elt Ideal))

/-- The reference's logit at (p, q) is the specification's: the contraction over the 64 hidden features plus the
    bias. -/
theorem logits_at (p : Fin 100000) (q : Fin 2) :
    ReadP.val_main_v62 (F := Ideal) x0 x1 x2 x3 x4 x5 x6 x7 x8 x9 (ix2 (n0 := 100000) (n1 := 2) p q)
      = Cert.Layers.logit (ReadP.val_main_v57 (F := Ideal) x0 x1 x2 x3 x4 x5 x6 x7)
          (ReadP.val_main_v58 (F := Ideal) x8) (ReadP.val_main_v60 (F := Ideal) x9) p q := by
  rw [ReadP.val_main_v62_apply, ReadP.val_main_v59_apply, ReadP.val_main_v61_apply]
  generalize ReadP.val_main_v57 (F := Ideal) x0 x1 x2 x3 x4 x5 x6 x7 = h2
  generalize ReadP.val_main_v58 (F := Ideal) x8 = w
  generalize ReadP.val_main_v60 (F := Ideal) x9 = b
  simp only [lidx59_eq, ridx59_eq, idx61_eq, Ideal.addf_def]
  rfl

/-- The reference's row maximum at p is the maximum of −∞ and the reduce from −∞ over the two classes; a fold of
    `max` that starts at −∞ is at least −∞, so the outer maximum is the fold itself: the specification's row maximum. -/
theorem rowMax_at (p : Fin 100000) :
    ReadP.val_main_call2_v2 (F := Ideal) x0 x1 x2 x3 x4 x5 x6 x7 x8 x9 (ix1 p)
      = Cert.Layers.rowMax (ReadP.val_main_v57 (F := Ideal) x0 x1 x2 x3 x4 x5 x6 x7)
          (ReadP.val_main_v58 (F := Ideal) x8) (ReadP.val_main_v60 (F := Ideal) x9) p := by
  rw [ReadP.val_main_call2_v2_apply, ReadP.val_main_call2_v1_apply, ReadP.val_main_call2_cst_0_apply]
  unfold ReadP.val_main_call2_v0
  rw [rowReduce_apply]
  simp only [logits_at, Ideal.maximumf_def, Ideal.ofBits_def]
  unfold Cert.Layers.rowMax
  exact max_eq_right ((Finset.le_fold_max _).2 (Or.inl le_rfl))

/-- The reference's shifted logit at (p, q) is the specification's: the logit minus the row maximum. -/
theorem shifted_at (p : Fin 100000) (q : Fin 2) :
    ReadP.val_main_call2_v5 (F := Ideal) x0 x1 x2 x3 x4 x5 x6 x7 x8 x9 (ix2 (n0 := 100000) (n1 := 2) p q)
      = Cert.Layers.shifted (ReadP.val_main_v57 (F := Ideal) x0 x1 x2 x3 x4 x5 x6 x7)
          (ReadP.val_main_v58 (F := Ideal) x8) (ReadP.val_main_v60 (F := Ideal) x9) p q := by
  rw [ReadP.val_main_call2_v5_apply, ReadP.val_main_call2_v4_apply, ReadP.val_main_call2_v3_apply, idx34_eq,
    rowMax_at, logits_at, Ideal.subf_def]
  rfl

/-- The exponential of the reference's shifted logit at (p, k) is the exponential of the specification's. -/
theorem expShifted_at (p : Fin 100000) (k : Fin 2) :
    ReadP.val_main_call2_v6 (F := Ideal) x0 x1 x2 x3 x4 x5 x6 x7 x8 x9 (ix2 (n0 := 100000) (n1 := 2) p k)
      = Ideal.exp (Cert.Layers.shifted (ReadP.val_main_v57 (F := Ideal) x0 x1 x2 x3 x4 x5 x6 x7)
          (ReadP.val_main_v58 (F := Ideal) x8) (ReadP.val_main_v60 (F := Ideal) x9) p k) := by
  rw [ReadP.val_main_call2_v6_apply, shifted_at, Ideal.hostUnary_exp_def]

/-- The reference's result is the specification's log-softmax of layer 2's output, the transposed 64x2 weight and
    the 1x2 bias: the shifted logit minus the logarithm of the row sum (from zero) of the exponentials. -/
theorem head_eq :
    ReadP.val_main_v63 (F := Ideal) x0 x1 x2 x3 x4 x5 x6 x7 x8 x9
      = Cert.Layers.logSoftmax2 (ReadP.val_main_v57 (F := Ideal) x0 x1 x2 x3 x4 x5 x6 x7)
          (ReadP.val_main_v58 (F := Ideal) x8) (ReadP.val_main_v60 (F := Ideal) x9) := by
  funext i
  obtain ⟨p, q, rfl⟩ : ∃ (p : Fin 100000) (q : Fin 2), i = ix2 p q := ⟨i 0, i 1, eq_ix2 i⟩
  rw [ReadP.val_main_v63_apply, ReadP.val_main_call2_v10_apply, ReadP.val_main_call2_v9_apply,
    ReadP.val_main_call2_v8_apply, ReadP.val_main_call2_v7_apply, ReadP.val_main_call2_cst_1_apply]
  simp only [idxSum_eq]
  rw [shifted_at, Finset.sum_congr rfl (fun k _ => expShifted_at x0 x1 x2 x3 x4 x5 x6 x7 x8 x9 p k),
    Ideal.subf_def, Ideal.hostUnary_log_def, Ideal.ofBits_def, Ideal.ofBits_zero_f32, zero_add]
  rfl

end Head

end Cert.ReferenceIdeal.Layers

end
-- ==== Proof.RefRun.lean ====
/-
  The reference program's run, read stage by stage.

  The reference is a straight line of 94 host operations, so its run is the fold of the operations' results over the
  launch contents.  Written out as one term of the arguments that fold repeats every shared intermediate value at
  each of its uses (the hidden features feed a gather and a product; the logits feed a maximum, a difference and,
  through it, a sum).  Instead the line is cut where the network's stages end — after the first layer's output, after
  the second layer's, at the result — and at each cut the few buffers later operations still read are named by the
  stage functions of the arguments: a later stage then sees an earlier one as a closed function value.
-/
import proofs.«122803_j17755394802084_1_alg».proof.Proof.ReferenceIdealRunP
import proofs.«122803_j17755394802084_1_alg».proof.Proof.ReferenceIdealReadP

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A line of operations cut after its first `k`: the rest runs from what the first `k` leave. -/
theorem after_cut (k : Nat) (l : List (HloOp τ sig (Elt F))) (V : Valuation τ sig (Elt F)) :
    after l V = after (l.drop k) (after (l.take k) V) := by
  conv_lhs => rw [← List.take_append_drop k l]
  exact after_append _ _ _

variable (V : Valuation τ sig (Elt F))

/-! ## After the first 39 operations: the first layer's output, the two index rows, the later arguments -/

set_option maxHeartbeats 4000000 in
theorem first_v30 : after ((ops (F := F)).take 39) V (Proc.devRef .tc main_v30)
    = val_main_v30 (F := F) (V (Proc.devRef .tc main_arg0)) (V (Proc.devRef .tc main_arg1)) (V (Proc.devRef .tc main_arg2)) (V (Proc.devRef .tc main_arg3)) (V (Proc.devRef .tc main_arg4)) := by
  simp only [ops, List.take_succ_cons, List.take_zero]
  after_results_simp
  rfl

theorem first_v1 : after ((ops (F := F)).take 39) V (Proc.devRef .tc main_v1) = val_main_v1 (F := F) (V (Proc.devRef .tc main_arg1)) := by
  simp only [ops, List.take_succ_cons, List.take_zero]
  after_results
  rfl

theorem first_v3 : after ((ops (F := F)).take 39) V (Proc.devRef .tc main_v3) = val_main_v3 (F := F) (V (Proc.devRef .tc main_arg1)) := by
  simp only [ops, List.take_succ_cons, List.take_zero]
  after_results
  rfl

/-- The first 39 operations write none of the arguments. -/
theorem first_arg5 : after ((ops (F := F)).take 39) V (Proc.devRef .tc main_arg5) = V (Proc.devRef .tc main_arg5) := by
  simp only [ops, List.take_succ_cons, List.take_zero]
  after_results_simp

theorem first_arg6 : after ((ops (F := F)).take 39) V (Proc.devRef .tc main_arg6) = V (Proc.devRef .tc main_arg6) := by
  simp only [ops, List.take_succ_cons, List.take_zero]
  after_results_simp

theorem first_arg7 : after ((ops (F := F)).take 39) V (Proc.devRef .tc main_arg7) = V (Proc.devRef .tc main_arg7) := by
  simp only [ops, List.take_succ_cons, List.take_zero]
  after_results_simp

theorem first_arg8 : after ((ops (F := F)).take 39) V (Proc.devRef .tc main_arg8) = V (Proc.devRef .tc main_arg8) := by
  simp only [ops, List.take_succ_cons, List.take_zero]
  after_results_simp

theorem first_arg9 : after ((ops (F := F)).take 39) V (Proc.devRef .tc main_arg9) = V (Proc.devRef .tc main_arg9) := by
  simp only [ops, List.take_succ_cons, List.take_zero]
  after_results_simp

end Cert.ReferenceIdeal.Stages

end
-- ==== Proof.RefStage2.lean ====
/-
  The reference's operations 40 to 74: the second layer.  From any contents `W` in which the first layer's output,
  the two rows of the edge index and the second layer's weights and bias are the named values, these operations —
  the neighbour mean of the first layer's output, the two products, the bias, the relu — leave the second layer's
  output at its stage function of the arguments.  The first layer's output enters as a closed value: it is read by
  the gather and by the second product, and is not opened.
-/
import proofs.«122803_j17755394802084_1_alg».proof.Proof.ReferenceIdealRunP
import proofs.«122803_j17755394802084_1_alg».proof.Proof.ReferenceIdealReadP

set_option maxRecDepth 16384

noncomputable section

namespace Cert.ReferenceIdeal.Stage2

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
theorem second_v57 (W : Valuation τ sig (Elt F)) (x0 : (⟨S100000x182, .f32⟩ : BufTy).Contents (Elt F)) (x1 : (⟨S2x800000, .i32⟩ : BufTy).Contents (Elt F)) (x2 : (⟨S128x182, .f32⟩ : BufTy).Contents (Elt F)) (x3 : (⟨S128x182, .f32⟩ : BufTy).Contents (Elt F)) (x4 : (⟨S128, .f32⟩ : BufTy).Contents (Elt F)) (x5 : (⟨S64x128, .f32⟩ : BufTy).Contents (Elt F)) (x6 : (⟨S64x128, .f32⟩ : BufTy).Contents (Elt F)) (x7 : (⟨S64, .f32⟩ : BufTy).Contents (Elt F))
    (h30 : W (Proc.devRef .tc main_v30) = val_main_v30 (F := F) x0 x1 x2 x3 x4)
    (h1 : W (Proc.devRef .tc main_v1) = val_main_v1 (F := F) x1) (h3 : W (Proc.devRef .tc main_v3) = val_main_v3 (F := F) x1)
    (h5 : W (Proc.devRef .tc main_arg5) = x5) (h6 : W (Proc.devRef .tc main_arg6) = x6) (h7 : W (Proc.devRef .tc main_arg7) = x7) :
    after (((ops (F := F)).take 74).drop 39) W (Proc.devRef .tc main_v57) = val_main_v57 (F := F) x0 x1 x2 x3 x4 x5 x6 x7 := by
  simp only [ops, List.take_succ_cons, List.take_zero, List.drop_succ_cons, List.drop_zero]
  after_results_simp
  rw [h30, h1, h3, h5, h6, h7]
  rfl

/-- The second layer's operations write none of the arguments. -/
theorem second_arg8 (W : Valuation τ sig (Elt F)) :
    after (((ops (F := F)).take 74).drop 39) W (Proc.devRef .tc main_arg8) = W (Proc.devRef .tc main_arg8) := by
  simp only [ops, List.take_succ_cons, List.take_zero, List.drop_succ_cons, List.drop_zero]
  after_results_simp

theorem second_arg9 (W : Valuation τ sig (Elt F)) :
    after (((ops (F := F)).take 74).drop 39) W (Proc.devRef .tc main_arg9) = W (Proc.devRef .tc main_arg9) := by
  simp only [ops, List.take_succ_cons, List.take_zero, List.drop_succ_cons, List.drop_zero]
  after_results_simp

end Cert.ReferenceIdeal.Stage2

end
-- ==== Proof.RefStage3.lean ====
/-
  The reference's operations 75 to 94: the linear head and the log-softmax.  From any contents `W` in which the second
  layer's output and the head's weight and bias are the named values, these operations leave the result at its stage
  function of the arguments.  The logits are read four times (by the row maximum, by the difference, and through the
  difference by the exponentials and the final subtraction); the second layer's output under them stays closed.
-/
import proofs.«122803_j17755394802084_1_alg».proof.Proof.ReferenceIdealRunP
import proofs.«122803_j17755394802084_1_alg».proof.Proof.ReferenceIdealReadP

set_option maxRecDepth 16384

noncomputable section

namespace Cert.ReferenceIdeal.Stage3

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
theorem third_v63 (W : Valuation τ sig (Elt F)) (x0 : (⟨S100000x182, .f32⟩ : BufTy).Contents (Elt F)) (x1 : (⟨S2x800000, .i32⟩ : BufTy).Contents (Elt F)) (x2 : (⟨S128x182, .f32⟩ : BufTy).Contents (Elt F)) (x3 : (⟨S128x182, .f32⟩ : BufTy).Contents (Elt F)) (x4 : (⟨S128, .f32⟩ : BufTy).Contents (Elt F)) (x5 : (⟨S64x128, .f32⟩ : BufTy).Contents (Elt F)) (x6 : (⟨S64x128, .f32⟩ : BufTy).Contents (Elt F)) (x7 : (⟨S64, .f32⟩ : BufTy).Contents (Elt F)) (x8 : (⟨S2x64, .f32⟩ : BufTy).Contents (Elt F)) (x9 : (⟨S2, .f32⟩ : BufTy).Contents (Elt F))
    (h57 : W (Proc.devRef .tc main_v57) = val_main_v57 (F := F) x0 x1 x2 x3 x4 x5 x6 x7)
    (h8 : W (Proc.devRef .tc main_arg8) = x8) (h9 : W (Proc.devRef .tc main_arg9) = x9) :
    after ((ops (F := F)).drop 74) W (Proc.devRef .tc main_v63) = val_main_v63 (F := F) x0 x1 x2 x3 x4 x5 x6 x7 x8 x9 := by
  simp only [ops, List.take_succ_cons, List.take_zero, List.drop_succ_cons, List.drop_zero]
  after_results_simp
  rw [h57, h8, h9]
  simp only [val_main_v63, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst, val_main_v62, val_main_v61, val_main_v60, val_main_v59, val_main_v58, TRef.toBuf, TRef.ofBuf, cast_eq]

end Cert.ReferenceIdeal.Stage3

end
-- ==== Proof.RefRunAll.lean ====
/-
  The reference program's run, assembled.  The 94 operations are cut after the 39th and the 74th; the three stretches
  are the first layer, the second layer, and the head with its log-softmax.  Each stretch was read from arbitrary
  contents in which the few buffers it needs hold named values; here the first stretch starts from the launch contents,
  each later one from what the earlier ones leave, and the result is the last stage's function of the ten arguments.
  No operation writes an argument, so the arguments end as launched.
-/
import proofs.«122803_j17755394802084_1_alg».proof.Proof.RefRun
import proofs.«122803_j17755394802084_1_alg».proof.Proof.RefStage2
import proofs.«122803_j17755394802084_1_alg».proof.Proof.RefStage3

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (V : Valuation τ sig (Elt F))

/-- The first 39 of the first 74 operations are the first 39. -/
theorem take_take_ops : (((ops (F := F)).take 74).take 39) = (ops (F := F)).take 39 := by
  rw [List.take_take]; rfl

/-- After the first 74 operations the second layer's output is its stage of the arguments. -/
theorem upto74_v57 : after ((ops (F := F)).take 74) V (Proc.devRef .tc main_v57)
    = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_cut 39 ((ops (F := F)).take 74) V, take_take_ops]
  exact Stage2.second_v57 _ _ _ _ _ _ _ _ _ (first_v30 V) (first_v1 V) (first_v3 V) (first_arg5 V) (first_arg6 V) (first_arg7 V)

theorem upto74_arg8 : after ((ops (F := F)).take 74) V (Proc.devRef .tc main_arg8) = (V (Proc.devRef .tc main_arg8)) := by
  rw [after_cut 39 ((ops (F := F)).take 74) V, take_take_ops]
  exact (Stage2.second_arg8 _).trans (first_arg8 V)

theorem upto74_arg9 : after ((ops (F := F)).take 74) V (Proc.devRef .tc main_arg9) = (V (Proc.devRef .tc main_arg9)) := by
  rw [after_cut 39 ((ops (F := F)).take 74) V, take_take_ops]
  exact (Stage2.second_arg9 _).trans (first_arg9 V)

/-- After all 94 operations the result buffer holds the result stage of the arguments. -/
theorem result_v63 : after (ops (F := F)) V (Proc.devRef .tc main_v63)
    = val_main_v63 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_cut 74 (ops (F := F)) V]
  exact Stage3.third_v63 _ _ _ _ _ _ _ _ _ _ _ (upto74_v57 V) (upto74_arg8 V) (upto74_arg9 V)

/-! ## No operation writes an argument -/

set_option maxHeartbeats 4000000 in
theorem kept_arg0 : after (ops (F := F)) V (Proc.devRef .tc main_arg0) = (V (Proc.devRef .tc main_arg0)) := by
  simp only [ops]
  after_results_simp

set_option maxHeartbeats 4000000 in
theorem kept_arg1 : after (ops (F := F)) V (Proc.devRef .tc main_arg1) = (V (Proc.devRef .tc main_arg1)) := by
  simp only [ops]
  after_results_simp

set_option maxHeartbeats 4000000 in
theorem kept_arg2 : after (ops (F := F)) V (Proc.devRef .tc main_arg2) = (V (Proc.devRef .tc main_arg2)) := by
  simp only [ops]
  after_results_simp

set_option maxHeartbeats 4000000 in
theorem kept_arg3 : after (ops (F := F)) V (Proc.devRef .tc main_arg3) = (V (Proc.devRef .tc main_arg3)) := by
  simp only [ops]
  after_results_simp

set_option maxHeartbeats 4000000 in
theorem kept_arg4 : after (ops (F := F)) V (Proc.devRef .tc main_arg4) = (V (Proc.devRef .tc main_arg4)) := by
  simp only [ops]
  after_results_simp

set_option maxHeartbeats 4000000 in
theorem kept_arg5 : after (ops (F := F)) V (Proc.devRef .tc main_arg5) = (V (Proc.devRef .tc main_arg5)) := by
  simp only [ops]
  after_results_simp

set_option maxHeartbeats 4000000 in
theorem kept_arg6 : after (ops (F := F)) V (Proc.devRef .tc main_arg6) = (V (Proc.devRef .tc main_arg6)) := by
  simp only [ops]
  after_results_simp

set_option maxHeartbeats 4000000 in
theorem kept_arg7 : after (ops (F := F)) V (Proc.devRef .tc main_arg7) = (V (Proc.devRef .tc main_arg7)) := by
  simp only [ops]
  after_results_simp

set_option maxHeartbeats 4000000 in
theorem kept_arg8 : after (ops (F := F)) V (Proc.devRef .tc main_arg8) = (V (Proc.devRef .tc main_arg8)) := by
  simp only [ops]
  after_results_simp

set_option maxHeartbeats 4000000 in
theorem kept_arg9 : after (ops (F := F)) V (Proc.devRef .tc main_arg9) = (V (Proc.devRef .tc main_arg9)) := by
  simp only [ops]
  after_results_simp

/-- Every weakly fair execution of the reference terminates, nothing faulting, with the result at the result stage of
    the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (result_v63 _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _)⟩)
    (run_seq scopedRefs_eq scopedSems_eq defs main (fun _ => ops) main_eq (fun _ => ops_sub) m ρ)

end Cert.ReferenceIdeal.Stages

end
-- ==== Proof.lean ====
/-
  Two graph-convolution layers and a log-softmax head: the tiled program against its whole-array reference, at the
  extended reals.

  A layer takes, for every node, the mean of its in-neighbours' feature vectors (a gather along the edges' sources, a
  scatter-add at their targets, a division by the in-degree clipped below at one), multiplies the mean and the node's
  own features by two weight matrices, adds a bias and takes the maximum with zero.  The head multiplies by a third
  matrix, adds a bias, and returns each row's log-softmax in the shifted form (l − M) − log Σ exp(l − M), M the row's
  maximum.  The tiled program computes the neighbour means on the host with the reference's very operations and each
  dense stage in a pipelined region over 20 blocks of 5000 rows; the reference computes each dense stage with
  whole-array operations.

  Read at the extended reals a change of float format is the identity and both a block's matrix product into a zero
  accumulator and the host's contraction are the plain finite sum over the contracted axis, so each dense stage is the
  same function of its operands on both sides, entry by entry: a row of a block is a row of the array, the blocks
  tile the rows, and the sums, the maximum over two classes, the exponentials and the logarithm are the same
  expressions.  No algebraic law relates the two sides — they are one expression tree — so the proof never uses
  that the inputs are finite.  The neighbour mean is never opened: it is one closed function applied, on both sides,
  to equal arrays.

  The statement's five parts: the three programs run to the end without a fault and leave their arguments unchanged
  (for the two tiled programs the launch proofs over their six segments; for the reference its straight-line run);
  the idealization rewrote nothing; and the two idealized programs end with equal results (the tiled program's result
  buffer is followed boundary by boundary to the reference's result stage of the launch contents).
-/
import proofs.«122803_j17755394802084_1_alg».proof.Defs
import proofs.«122803_j17755394802084_1_alg».proof.Proof.Gen.Kernel
import proofs.«122803_j17755394802084_1_alg».proof.Proof.Gen.KernelIdeal
import proofs.«122803_j17755394802084_1_alg».proof.Proof.Gen.ReferenceIdeal
import proofs.«122803_j17755394802084_1_alg».proof.Proof.Gen.Pre_finite_inputs
import proofs.«122803_j17755394802084_1_alg».proof.Proof.KernelFrameP
import proofs.«122803_j17755394802084_1_alg».proof.Proof.KernelIdealFrameP
import proofs.«122803_j17755394802084_1_alg».proof.Proof.KernelOut
import proofs.«122803_j17755394802084_1_alg».proof.Proof.KWalk2
import proofs.«122803_j17755394802084_1_alg».proof.Proof.Region0
import proofs.«122803_j17755394802084_1_alg».proof.Proof.Region1
import proofs.«122803_j17755394802084_1_alg».proof.Proof.Region2
import proofs.«122803_j17755394802084_1_alg».proof.Proof.RefLayers
import proofs.«122803_j17755394802084_1_alg».proof.Proof.RefRunAll
import Idealize.ShloMosaic.Adequacy
import Idealize.ShloMosaic.Init

noncomputable section

namespace Cert.Proof

open Idealize.ShloMosaic Idealize.SL.Sem

/-- The word-level program runs to the end, nothing faulting, its arguments unchanged. -/
theorem frame_kernel [Cert.Kernel.Facts] [Cert.Pre_finite_inputs.Facts] : Cert.frame_Kernel :=
  fun m ρ _ => Cert.Kernel.GenP.frame m ρ

/-- So does its reading at the extended reals. -/
theorem frame_kernel_ideal [Cert.KernelIdeal.Facts] [Cert.Pre_finite_inputs.Facts] : Cert.frame_KernelIdeal :=
  fun m ρ _ => Cert.KernelIdeal.GenP.frame m ρ

/-- The reference is a straight line of host operations none of which writes an argument. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Stages.run (F := Ideal) m ρ)

/-- Both idealized programs end with the reference's result stage of the (agreeing) launch contents of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Walk.result_eq m ρ c Cert.KernelIdeal.Region0.array_eq Cert.KernelIdeal.Region1.array_eq
          Cert.KernelIdeal.Region2.array_eq Cert.ReferenceIdeal.Layers.layer1_eq Cert.ReferenceIdeal.Layers.layer2_eq Cert.ReferenceIdeal.Layers.head_eq), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Stages.run (F := Ideal) m' ρ')
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
